-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_arg12 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  main_v63

def fn_part2 {F : FTy → Type} [FloatOps F] (main_arg7 : FVec F S128x128 .f32) (main_arg8 : FVec F S128x128 .f32) (main_arg9 : FVec F S128 .f32) (main_arg10 : FVec F S128x128 .f32) (main_arg11 : FVec F S128 .f32) (main_arg12 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128x128 .f32) (main_arg13 : IVec S800000 32) (main_arg14 : IVec S800000 32) (main_arg15 : IVec S800000 32) (main_arg16 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S1x128 : Shape := ⟨2, ![1, 128]⟩
abbrev S2000x128 : Shape := ⟨2, ![2000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩

abbrev nBuf : Space → Nat
  | .hbm => 115
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S50000x128, .f32⟩
  | .hbm, ⟨23, _⟩ => ⟨S50000x128, .bf16⟩
  | .hbm, ⟨24, _⟩ => ⟨S50000x128, .bf16⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S800000, .f32⟩
  | .hbm, ⟨38, _⟩ => ⟨S_, .f32⟩
  | .hbm, ⟨39, _⟩ => ⟨S50000, .f32⟩
  | .hbm, ⟨40, _⟩ => ⟨S800000x1, .i32⟩
  | .hbm, ⟨41, _⟩ => ⟨S50000, .f32⟩
  | .hbm, ⟨42, _⟩ => ⟨S_, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .bf16⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .bf16⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .bf16⟩
  | .hbm, ⟨81, _⟩ => ⟨S50000x128, .bf16⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .bf16⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .i32⟩
  | .hbm, ⟨99, _⟩ => ⟨S800000, .i32⟩
  | .hbm, ⟨100, _⟩ => ⟨S800000, .i1⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000, .i32⟩
  | .hbm, ⟨105, _⟩ => ⟨S800000x1, .i32⟩
  | .hbm, ⟨106, _⟩ => ⟨S800000x128, .bf16⟩
  | .hbm, ⟨107, _⟩ => ⟨S800000x128, .f32⟩
  | .hbm, ⟨108, _⟩ => ⟨S_, .f32⟩
  | .hbm, ⟨109, _⟩ => ⟨S50000x128, .f32⟩
  | .hbm, ⟨110, _⟩ => ⟨S800000x1, .i32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .bf16⟩
  | .local _ .vmem, ⟨26, _⟩ => ⟨S2000x128, .bf16⟩
  | .local _ .vmem, ⟨27, _⟩ => ⟨S2000x128, .bf16⟩
  | .local _ .vmem, ⟨28, _⟩ => ⟨S2000x128, .bf16⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S1x128, .f32⟩
  | .local _ .vmem, ⟨36, _⟩ => ⟨S1x128, .f32⟩
  | .local _ .vmem, ⟨37, _⟩ => ⟨S128x128, .f32⟩
  | .local _ .vmem, ⟨38, _⟩ => ⟨S2000x128, .f32⟩
  | .local _ .vmem, ⟨39, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_cst : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v10 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_v17 : Ref sig .tc := ⟨.hbm, 46, rfl⟩
abbrev main_c : Ref sig .tc := ⟨.hbm, 47, rfl⟩
abbrev main_v18 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_9 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44_0 : Ref sig .tc := ⟨.hbm, 79, rfl⟩
abbrev main_v44_1 : Ref sig .tc := ⟨.hbm, 80, rfl⟩
abbrev main_v44_2 : Ref sig .tc := ⟨.hbm, 81, rfl⟩
abbrev main_c_10 : Ref sig .tc := ⟨.hbm, 82, rfl⟩
abbrev main_v45 : Ref sig .tc := ⟨.hbm, 83, rfl⟩
abbrev main_v46 : Ref sig .tc := ⟨.hbm, 84, rfl⟩
abbrev main_c_11 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_13 : Ref sig .tc := ⟨.hbm, 98, rfl⟩
abbrev main_v58 : Ref sig .tc := ⟨.hbm, 99, rfl⟩
abbrev main_v59 : Ref sig .tc := ⟨.hbm, 100, rfl⟩
abbrev main_c_14 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_15 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem6_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .bf16 = 32 ∨ (Rect.block (s := S50000x128) S2000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .bf16 = 32 ∨ (Rect.block (s := S50000x128) S2000x128.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .bf16 = 32 ∨ (Rect.block (s := S50000x128) S2000x128.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44_0) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v44_1) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v44_2) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v44_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S800000, .i32⟩
  | 14 => ⟨S800000, .i32⟩
  | 15 => ⟨S800000, .i32⟩
  | 16 => ⟨S800000, .i32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S_, .f32⟩
  | 109 => ⟨S50000, .f32⟩
  | 110 => ⟨S50000, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S_, .f32⟩
  | 4 => ⟨S800000, .f32⟩
  | 5 => ⟨S_, .f32⟩
  | 6 => ⟨S50000, .f32⟩
  | 7 => ⟨S800000x1, .i32⟩
  | 8 => ⟨S50000, .f32⟩
  | 9 => ⟨S_, .f32⟩
  | 10 => ⟨S_, .f32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_call1_v0 : Ref sig .tc := ⟨.hbm, 72, rfl⟩
abbrev main_call1_v1 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call2_cst : Ref sig .tc := ⟨.hbm, 84, rfl⟩
abbrev main_call2_v0 : Ref sig .tc := ⟨.hbm, 85, rfl⟩
abbrev main_v51 : Ref sig .tc := ⟨.hbm, 86, rfl⟩
abbrev main_v52 : Ref sig .tc := ⟨.hbm, 87, rfl⟩
abbrev main_c_10 : Ref sig .tc := ⟨.hbm, 88, rfl⟩
abbrev main_v53 : Ref sig .tc := ⟨.hbm, 89, rfl⟩
abbrev main_v54 : Ref sig .tc := ⟨.hbm, 90, rfl⟩
abbrev main_c_11 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_12 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_13 : Ref sig .tc := ⟨.hbm, 101, rfl⟩
abbrev main_v63 : Ref sig .tc := ⟨.hbm, 102, rfl⟩
abbrev main_cst_14 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_15 : Ref sig .tc := ⟨.hbm, 107, rfl⟩
abbrev main_call3_v0 : Ref sig .tc := ⟨.hbm, 108, rfl⟩
abbrev main_call3_v1 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_16 : Ref sig .tc := ⟨.hbm, 118, rfl⟩
abbrev main_v75 : Ref sig .tc := ⟨.hbm, 119, rfl⟩
abbrev main_v76 : Ref sig .tc := ⟨.hbm, 120, rfl⟩
abbrev main_c_17 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_18 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_19 : Ref sig .tc := ⟨.hbm, 131, rfl⟩
abbrev main_v85 : Ref sig .tc := ⟨.hbm, 132, rfl⟩
abbrev main_cst_20 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_21 : Ref sig .tc := ⟨.hbm, 137, rfl⟩
abbrev main_call4_v0 : Ref sig .tc := ⟨.hbm, 138, rfl⟩
abbrev main_call4_v1 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call5_cst : Ref sig .tc := ⟨.hbm, 150, rfl⟩
abbrev main_call5_v0 : Ref sig .tc := ⟨.hbm, 151, rfl⟩
abbrev main_v99 : Ref sig .tc := ⟨.hbm, 152, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KRun.lean ====
/-
  The idealized kernel program's run with its result named: every weakly fair execution of @main terminates, nothing
  faults, the argument arrays end as launched, and the result array ends at the contents the last pipelined region
  leaves in it — the last boundary of the fold of buffer contents through @main's host lines and regions. The launch
  is the one that proves the program's frame, read once more against the final state at the result's buffer.
-/
import proofs.«123243_j17592186044980_2_alg».proof.Proof.Gen.KernelIdeal.Frame

set_option maxRecDepth 16384

noncomputable section

namespace Cert.KSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result's buffer ends at the last boundary's contents, every argument as launched. -/
theorem run_result : θ_run defs (onTc (τ := τ) (main (F := F))) ⟨m, fun _ => 0, ρ⟩ (fun r => ∀ c : Dev nD,
      r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KSide

end
-- ==== Proof.Spec.lean ====
/-
  The network both programs compute, as functions of whole arrays over the extended reals.

  A node-feature array is a function on the index set of a 50000 × 128 array; a weight matrix on that of a
  128 × 128 array; a bias on that of a 128-vector. A dense step is the matrix product `mm h W`, whose entry
  (n, c) is the sum over k of h(n, k) · W(k, c). The projection adds a bias to every row. A layer takes the
  two normalised neighbourhood aggregates A and B of its input h (one per edge type), adds each type's bias,
  adds the self-loop product h · L and clamps at zero. The whole network is the projection followed by two
  layers, each layer's aggregates being the images of the layer's two message arrays `mm h W` under the
  aggregation maps of the two edge types, which this module leaves abstract.

  One program sums the four terms of a layer as ((A + a) + B) + b, the other as (A + a) + (B + b); addition on
  the extended reals is associative, so the two are the same function (`layerK_eq_layer`).
-/
import Idealize.ShloMosaic.PureOps.Ideal
import Idealize.ShloMosaic.Lib.ValueIdx

noncomputable section

namespace Cert.Spec

open Idealize.ShloMosaic Idealize.ShloMosaic.ValueIdx

/-- The index set of a node-feature array. -/
abbrev SND : Shape := ⟨2, ![50000, 128]⟩
/-- The index set of a weight matrix. -/
abbrev SDD : Shape := ⟨2, ![128, 128]⟩
/-- The index set of a bias vector. -/
abbrev SD : Shape := ⟨1, ![128]⟩
/-- The index set of a bias vector laid out as one row. -/
abbrev S1D : Shape := ⟨2, ![1, 128]⟩

/-- The word of the float zero, read on the extended reals (never evaluated: both programs spell the same word). -/
abbrev zeroW : EReal := Ideal.ofBits .f32 0x00000000#32

/-- The matrix product: entry (n, c) is the sum over k of h(n, k) · W(k, c). -/
def mm (h : SND.Idx → EReal) (W : SDD.Idx → EReal) : SND.Idx → EReal :=
  fun j => ∑ k : Fin 128, h (ix2 (j 0) k) * W (ix2 k (j 1))

/-- The projection: the product with the bias added to every row. -/
def proj (x : SND.Idx → EReal) (W : SDD.Idx → EReal) (b : SD.Idx → EReal) : SND.Idx → EReal :=
  fun j => mm x W j + b (ix1 (j 1))

/-- A layer from its input `h`, the two aggregates `A`, `B`, the two biases and the self-loop matrix, the four
    summands grouped by edge type: max(((A + a) + (B + b)) + h·L, 0). -/
def layer (h A B : SND.Idx → EReal) (ba bb : SD.Idx → EReal) (L : SDD.Idx → EReal) : SND.Idx → EReal :=
  fun j => max (((A j + ba (ix1 (j 1))) + (B j + bb (ix1 (j 1)))) + mm h L j) zeroW

/-- The same layer with the four summands added one after the other: max((((A + a) + B) + b) + h·L, 0). -/
def layerK (h A B : SND.Idx → EReal) (ba bb : SD.Idx → EReal) (L : SDD.Idx → EReal) : SND.Idx → EReal :=
  fun j => max ((((A j + ba (ix1 (j 1))) + B j) + bb (ix1 (j 1))) + mm h L j) zeroW

/-- Regrouping a sum of extended reals does not change it. -/
theorem layerK_eq_layer (h A B : SND.Idx → EReal) (ba bb : SD.Idx → EReal) (L : SDD.Idx → EReal) :
    layerK h A B ba bb L = layer h A B ba bb L := by
  funext j
  unfold layerK layer
  rw [add_assoc (A j + ba (ix1 (j 1))) (B j) (bb (ix1 (j 1)))]

/-- A bias stored as one row, read as a vector. -/
def rowVec (b : S1D.Idx → EReal) : SD.Idx → EReal := fun i => b (ix2 (0 : Fin 1) (i 0))

/-- The hidden features after the first layer. -/
def hidden (aggA aggB : (SND.Idx → EReal) → (SND.Idx → EReal))
    (x : SND.Idx → EReal) (Wp : SDD.Idx → EReal) (bp : SD.Idx → EReal)
    (W1a : SDD.Idx → EReal) (b1a : SD.Idx → EReal) (W1b : SDD.Idx → EReal) (b1b : SD.Idx → EReal) (L1 : SDD.Idx → EReal) :
    SND.Idx → EReal :=
  layer (proj x Wp bp) (aggA (mm (proj x Wp bp) W1a)) (aggB (mm (proj x Wp bp) W1b)) b1a b1b L1

/-- The network: projection, then two layers; `aggA`, `aggB` are the two edge types' aggregation maps. -/
def net (aggA aggB : (SND.Idx → EReal) → (SND.Idx → EReal))
    (x : SND.Idx → EReal) (Wp : SDD.Idx → EReal) (bp : SD.Idx → EReal)
    (W1a : SDD.Idx → EReal) (b1a : SD.Idx → EReal) (W1b : SDD.Idx → EReal) (b1b : SD.Idx → EReal) (L1 : SDD.Idx → EReal)
    (W2a : SDD.Idx → EReal) (b2a : SD.Idx → EReal) (W2b : SDD.Idx → EReal) (b2b : SD.Idx → EReal) (L2 : SDD.Idx → EReal) :
    SND.Idx → EReal :=
  layer (hidden aggA aggB x Wp bp W1a b1a W1b b1b L1)
    (aggA (mm (hidden aggA aggB x Wp bp W1a b1a W1b b1b L1) W2a))
    (aggB (mm (hidden aggA aggB x Wp bp W1a b1a W1b b1b L1) W2b)) b2a b2b L2

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Region0.lean ====
/-
  The first pipelined region, as whole-array functions over the extended reals.

  The region walks 25 grid points. At point t it stages rows 2000·t … 2000·t + 1999 of the node features x (a
  50000 × 128 array) together with the whole of the projection weight W, of the bias row b and of the first layer's
  two weights Wa and Wb, and writes back three 2000 × 128 blocks at block row t: the block of h = x · W + b, whose
  entry (p, q) is the sum over k of x(2000·t + p, k) · W(k, q) plus b(q), and the blocks of h · Wa and h · Wb, whose
  entry (p, q) is the sum over k of the entry (p, k) of h's block times the weight's entry (k, q). Narrowing a value to
  the 16-bit float type is the identity on the extended reals, so the products are products of the values themselves.

  Three steps. (1) Each stored block at an entry (p, q), from the staged blocks: the matrix-unit product into the
  zero accumulator is a sum over the 128 contracted positions, and the bias row is repeated along the rows. (2) Each
  staged block read off its array: a block's coordinate on an axis is block index × block size + the coordinate
  inside the block, and the block indices at point t are decided once over the 25 points. Hence what point t writes
  back is block t of ONE function of the whole arrays: the projection, and its products with the two weights.
  (3) Row r of a 50000-row array lies in the block of point r / 2000 and every point writes its block back, so the
  blocks tile each output array and the array ends holding that function.
-/
import proofs.«123243_j17592186044980_2_alg».proof.Proof.Gen.KernelIdeal.Frame
import proofs.«123243_j17592186044980_2_alg».proof.Proof.Spec
import proofs.«123243_j17592186044980_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KSide

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

namespace R0

/-- The projection's block at an entry: row p of the feature block against column q of the weight, plus the
    bias row's entry q. -/
theorem pay1_apply (x0 : Vec Ideal S2000x128 .f32) (x1 : Vec Ideal S128x128 .f32) (x2 : Vec Ideal S1x128 .f32)
    (p : Fin 2000) (q : Fin 128) :
    k0_pay1 (F := Ideal) x0 x1 x2 (ix2 p q)
      = (∑ k : Fin 128, x0 (ix2 p k) * x1 (ix2 k q)) + x2 (ix2 (0 : Fin 1) q) := by
  unfold k0_pay1
  refine congrArg₂ (· + ·) ?_ ?_
  · exact (Cert.PlainDot.matmul_zero_apply 2000 128 128 none _ _ _)
  · rw [shapeCast_self]
    exact broadcastTo_1b_ab_apply _ _ p q

/-- A message block at an entry: row p of the projection's block against column q of the layer's weight. -/
theorem pay3_apply (x0 : Vec Ideal S2000x128 .f32) (x1 : Vec Ideal S128x128 .f32) (x2 : Vec Ideal S1x128 .f32)
    (w : Vec Ideal S128x128 .f32) (p : Fin 2000) (q : Fin 128) :
    k0_pay3 (F := Ideal) x0 x1 x2 w (ix2 p q)
      = ∑ k : Fin 128, k0_pay1 (F := Ideal) x0 x1 x2 (ix2 p k) * w (ix2 k q) := by
  unfold k0_pay3 k0_pay2
  exact (Cert.PlainDot.matmul_zero_apply 2000 128 128 none _ _ _)

/-- The second message block at an entry: the same product with the layer's second weight. -/
theorem pay4_apply (x0 : Vec Ideal S2000x128 .f32) (x1 : Vec Ideal S128x128 .f32) (x2 : Vec Ideal S1x128 .f32)
    (w : Vec Ideal S128x128 .f32) (p : Fin 2000) (q : Fin 128) :
    k0_pay4 (F := Ideal) x0 x1 x2 w (ix2 p q)
      = ∑ k : Fin 128, k0_pay1 (F := Ideal) x0 x1 x2 (ix2 p k) * w (ix2 k q) := by
  unfold k0_pay4 k0_pay2
  exact (Cert.PlainDot.matmul_zero_apply 2000 128 128 none _ _ _)

/-- The zero offsets of a whole-block access. -/
theorem hz : (![0, 0] : Fin 2 → Nat) = fun _ => 0 := funext fun a => by fin_cases a <;> rfl

/-- Where each window's block sits at grid point t: the row-block windows at block row t, the weight and bias
    windows at the one block they have. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Every block row of the output is some grid point's. -/
theorem idx_onto5 : ∀ q0 : Fin 25, ∃ t : Fin cfg0.N, win0_5.index t = ![q0.val, 0] :=
  (by decide +kernel : ∀ q0 : Fin 25, ∃ t : Fin grid0.N, win0_5.index t = ![q0.val, 0])
theorem idx_onto6 : ∀ q0 : Fin 25, ∃ t : Fin cfg0.N, win0_6.index t = ![q0.val, 0] :=
  (by decide +kernel : ∀ q0 : Fin 25, ∃ t : Fin grid0.N, win0_6.index t = ![q0.val, 0])
theorem idx_onto7 : ∀ q0 : Fin 25, ∃ t : Fin cfg0.N, win0_7.index t = ![q0.val, 0] :=
  (by decide +kernel : ∀ q0 : Fin 25, ∃ t : Fin grid0.N, win0_7.index t = ![q0.val, 0])

/-! ## An entry of each output block, from the arrays the input blocks were read off -/

/-- If row p of the feature block is row (e 0) of the feature array, and the weight and bias blocks are the whole
    weight and bias arrays, the projection block's entry (p, q) is the projection's entry at e, for e in column q. -/
theorem proj_entry (X : Spec.SND.Idx → EReal) (W : Spec.SDD.Idx → EReal) (B : Spec.S1D.Idx → EReal)
    (x0 : Vec Ideal S2000x128 .f32) (x1 : Vec Ideal S128x128 .f32) (x2 : Vec Ideal S1x128 .f32)
    (e : Spec.SND.Idx) (p : Fin 2000) (q : Fin 128)
    (h0 : ∀ k : Fin 128, x0 (ix2 p k) = X (ix2 (e 0) k))
    (h1 : ∀ k : Fin 128, x1 (ix2 k q) = W (ix2 k (e 1)))
    (h2 : x2 (ix2 (0 : Fin 1) q) = B (ix2 (0 : Fin 1) (e 1))) :
    k0_pay1 (F := Ideal) x0 x1 x2 (ix2 p q) = Spec.proj X W (Spec.rowVec B) e := by
  rw [pay1_apply]
  unfold Spec.proj Spec.mm Spec.rowVec
  refine congrArg₂ (· + ·) (Finset.sum_congr rfl fun k _ => ?_) h2
  rw [h0 k, h1 k]

/-- The same for a message block: its entry (p, q) is the product of the projection with the layer's weight at e. -/
theorem msg_entry (X : Spec.SND.Idx → EReal) (W : Spec.SDD.Idx → EReal) (B : Spec.S1D.Idx → EReal)
    (M : Spec.SDD.Idx → EReal)
    (x0 : Vec Ideal S2000x128 .f32) (x1 : Vec Ideal S128x128 .f32) (x2 : Vec Ideal S1x128 .f32)
    (w : Vec Ideal S128x128 .f32)
    (e : Spec.SND.Idx) (p : Fin 2000) (q : Fin 128)
    (h0 : ∀ k : Fin 128, x0 (ix2 p k) = X (ix2 (e 0) k))
    (h1 : ∀ k k' : Fin 128, x1 (ix2 k k') = W (ix2 k k'))
    (h2 : ∀ k : Fin 128, x2 (ix2 (0 : Fin 1) k) = B (ix2 (0 : Fin 1) k))
    (h3 : ∀ k : Fin 128, w (ix2 k q) = M (ix2 k (e 1))) :
    (∑ k : Fin 128, k0_pay1 (F := Ideal) x0 x1 x2 (ix2 p k) * w (ix2 k q))
      = Spec.mm (Spec.proj X W (Spec.rowVec B)) M e := by
  unfold Spec.mm
  refine Finset.sum_congr rfl fun k _ => ?_
  rw [proj_entry X W B x0 x1 x2 (ix2 (e 0) k) p k h0 (fun k' => h1 k' k) (h2 k), h3 k]

/-! ## Where the input blocks are read -/

/-- Row p of the feature block at grid point t is row 2000·t + p of the feature array. -/
theorem rows_read (c : Dev nD) (t : Fin cfg0.N) (e : Spec.SND.Idx) (p : Fin 2000) (k : Fin 128)
    (he : (e 0).val = t.val * 2000 + p.val) :
    (iblk0 V c 0 t : Vec Ideal S2000x128 .f32) (ix2 p k)
      = (V c main_arg0 : Spec.SND.Idx → EReal) (ix2 (e 0) k) := by
  obtain ⟨⟨i0, i1⟩, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * p.val = (e 0).val; rw [i0, he]; omega
  | ⟨1, _⟩ => show win0_0.index t (1 : Fin 2) * 128 + 1 * k.val = k.val; rw [i1]; omega

/-- The projection weight's block is the whole weight, at every grid point. -/
theorem wproj_read (c : Dev nD) (t : Fin cfg0.N) (e : Spec.SND.Idx) (q : Fin 128) (he : (e 1).val = q.val)
    (k : Fin 128) :
    (iblk0 V c 1 t : Vec Ideal S128x128 .f32) (ix2 k q)
      = (V c main_arg1 : Spec.SDD.Idx → EReal) (ix2 k (e 1)) := by
  obtain ⟨-, ⟨i0, i1⟩, -⟩ := idx_facts t
  unfold iblk0
  rw [View.read_apply]
  show V c main_arg1 _ = V c main_arg1 _
  refine congrArg _ (funext fun a => Fin.ext ?_)
  match a with
  | ⟨0, _⟩ => show win0_1.index t (0 : Fin 2) * 128 + 1 * k.val = k.val; rw [i0]; omega
  | ⟨1, _⟩ => show win0_1.index t (1 : Fin 2) * 128 + 1 * q.val = (e 1).val; rw [i1, he]; omega

/-- The bias row's block is the whole row. -/
theorem bias_read (c : Dev nD) (t : Fin cfg0.N) (e : Spec.SND.Idx) (q : Fin 128) (he : (e 1).val = q.val) :
    (iblk0 V c 2 t : Vec Ideal S1x128 .f32) (ix2 (0 : Fin 1) q)
      = (V c main_v0 : Spec.S1D.Idx → EReal) (ix2 (0 : Fin 1) (e 1)) := by
  obtain ⟨-, -, ⟨i0, i1⟩, -⟩ := idx_facts t
  unfold iblk0
  rw [View.read_apply]
  show V c main_v0 _ = V c main_v0 _
  refine congrArg _ (funext fun a => Fin.ext ?_)
  match a with
  | ⟨0, _⟩ => show win0_2.index t (0 : Fin 2) * 1 + 1 * 0 = 0; rw [i0]
  | ⟨1, _⟩ => show win0_2.index t (1 : Fin 2) * 128 + 1 * q.val = (e 1).val; rw [i1, he]; omega

/-- The first layer's two weights' blocks are the whole weights. -/
theorem wa_read (c : Dev nD) (t : Fin cfg0.N) (e : Spec.SND.Idx) (q : Fin 128) (he : (e 1).val = q.val)
    (k : Fin 128) :
    (iblk0 V c 3 t : Vec Ideal S128x128 .f32) (ix2 k q)
      = (V c main_arg3 : Spec.SDD.Idx → EReal) (ix2 k (e 1)) := by
  obtain ⟨-, -, -, ⟨i0, i1⟩, -⟩ := idx_facts t
  unfold iblk0
  rw [View.read_apply]
  show V c main_arg3 _ = V c main_arg3 _
  refine congrArg _ (funext fun a => Fin.ext ?_)
  match a with
  | ⟨0, _⟩ => show win0_3.index t (0 : Fin 2) * 128 + 1 * k.val = k.val; rw [i0]; omega
  | ⟨1, _⟩ => show win0_3.index t (1 : Fin 2) * 128 + 1 * q.val = (e 1).val; rw [i1, he]; omega

theorem wb_read (c : Dev nD) (t : Fin cfg0.N) (e : Spec.SND.Idx) (q : Fin 128) (he : (e 1).val = q.val)
    (k : Fin 128) :
    (iblk0 V c 4 t : Vec Ideal S128x128 .f32) (ix2 k q)
      = (V c main_arg5 : Spec.SDD.Idx → EReal) (ix2 k (e 1)) := by
  obtain ⟨-, -, -, -, ⟨i0, i1⟩, -⟩ := idx_facts t
  unfold iblk0
  rw [View.read_apply]
  show V c main_arg5 _ = V c main_arg5 _
  refine congrArg _ (funext fun a => Fin.ext ?_)
  match a with
  | ⟨0, _⟩ => show win0_4.index t (0 : Fin 2) * 128 + 1 * k.val = k.val; rw [i0]; omega
  | ⟨1, _⟩ => show win0_4.index t (1 : Fin 2) * 128 + 1 * q.val = (e 1).val; rw [i1, he]; omega

/-! ## What each grid point writes back -/

/-- Grid point t writes back block t of the projection. -/
theorem flushed5_eq (c : Dev nD) (t : Fin cfg0.N) :
    (dat0 V c).flushed 5 t = ((cfg0.win 5).blk t).view.read (Elt Ideal)
      (Spec.proj (V c main_arg0) (V c main_arg1) (Spec.rowVec (V c main_v0))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨-, -, -, -, -, ⟨o0, o1⟩, -, -⟩ := idx_facts t
  funext j
  obtain ⟨p, q, rfl⟩ : ∃ (p : Fin 2000) (q : Fin 128), j = ix2 p q := ⟨j 0, j 1, eq_ix2 j⟩
  rw [View.read_apply]
  have he0 : ((((cfg0.win 5).blk t).view.emb (ix2 p q)) 0).val = t.val * 2000 + p.val := by
    show win0_5.index t (0 : Fin 2) * 2000 + 1 * p.val = _; rw [o0]
    omega
  have he1 : ((((cfg0.win 5).blk t).view.emb (ix2 p q)) 1).val = q.val := by
    show win0_5.index t (1 : Fin 2) * 128 + 1 * q.val = _; rw [o1]
    omega
  exact proj_entry _ _ _ _ _ _ _ p q (fun k => rows_read V c t _ p k he0)
    (fun k => wproj_read V c t _ q he1 k) (bias_read V c t _ q he1)

/-- Grid point t writes back block t of the first message array: the projection times the first weight. -/
theorem flushed6_eq (c : Dev nD) (t : Fin cfg0.N) :
    (dat0 V c).flushed 6 t = ((cfg0.win 6).blk t).view.read (Elt Ideal)
      (Spec.mm (Spec.proj (V c main_arg0) (V c main_arg1) (Spec.rowVec (V c main_v0))) (V c main_arg3)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  obtain ⟨-, -, -, -, -, -, ⟨o0, o1⟩, -⟩ := idx_facts t
  funext j
  obtain ⟨p, q, rfl⟩ : ∃ (p : Fin 2000) (q : Fin 128), j = ix2 p q := ⟨j 0, j 1, eq_ix2 j⟩
  rw [View.read_apply]
  have he0 : ((((cfg0.win 6).blk t).view.emb (ix2 p q)) 0).val = t.val * 2000 + p.val := by
    show win0_6.index t (0 : Fin 2) * 2000 + 1 * p.val = _; rw [o0]
    omega
  have he1 : ((((cfg0.win 6).blk t).view.emb (ix2 p q)) 1).val = q.val := by
    show win0_6.index t (1 : Fin 2) * 128 + 1 * q.val = _; rw [o1]
    omega
  refine (pay3_apply _ _ _ _ p q).trans ?_
  exact msg_entry _ _ _ _ _ _ _ _ _ p q (fun k => rows_read V c t _ p k he0)
    (fun k k' => wproj_read V c t (ix2 (0 : Fin 50000) k') k' rfl k)
    (fun k => bias_read V c t (ix2 (0 : Fin 50000) k) k rfl) (fun k => wa_read V c t _ q he1 k)

/-- Grid point t writes back block t of the second message array: the projection times the second weight. -/
theorem flushed7_eq (c : Dev nD) (t : Fin cfg0.N) :
    (dat0 V c).flushed 7 t = ((cfg0.win 7).blk t).view.read (Elt Ideal)
      (Spec.mm (Spec.proj (V c main_arg0) (V c main_arg1) (Spec.rowVec (V c main_v0))) (V c main_arg5)) := by
  show (cfg0.win 7).cut (grid0.coords t) ((dat0 V c).after 7 t) = _
  rw [after0_7]
  unfold out0_7
  rw [View.canon_unit_zero hz]
  simp only [View.ld_unit_zero (S := S2000x128) hz, View.ld_unit_zero (S := S128x128) hz, View.ld_unit_zero (S := S1x128) hz]
  obtain ⟨-, -, -, -, -, -, -, ⟨o0, o1⟩⟩ := idx_facts t
  funext j
  obtain ⟨p, q, rfl⟩ : ∃ (p : Fin 2000) (q : Fin 128), j = ix2 p q := ⟨j 0, j 1, eq_ix2 j⟩
  rw [View.read_apply]
  have he0 : ((((cfg0.win 7).blk t).view.emb (ix2 p q)) 0).val = t.val * 2000 + p.val := by
    show win0_7.index t (0 : Fin 2) * 2000 + 1 * p.val = _; rw [o0]
    omega
  have he1 : ((((cfg0.win 7).blk t).view.emb (ix2 p q)) 1).val = q.val := by
    show win0_7.index t (1 : Fin 2) * 128 + 1 * q.val = _; rw [o1]
    omega
  refine (pay4_apply _ _ _ _ p q).trans ?_
  exact msg_entry _ _ _ _ _ _ _ _ _ p q (fun k => rows_read V c t _ p k he0)
    (fun k k' => wproj_read V c t (ix2 (0 : Fin 50000) k') k' rfl k)
    (fun k => bias_read V c t (ix2 (0 : Fin 50000) k) k rfl) (fun k => wb_read V c t _ q he1 k)

/-! ## The blocks tile the arrays -/

/-- An index of the array is in grid point t's block iff each coordinate is in the block's range on its axis. -/
theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v5_0).slice (win0_5.rect t)).set ↔ _
  rw [View.set_slice_whole, Rect.mem_set_unit]
  exact Iff.rfl

theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v5_1).slice (win0_6.rect t)).set ↔ _
  rw [View.set_slice_whole, Rect.mem_set_unit]
  exact Iff.rfl

theorem mem_blk7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v5_2).slice (win0_7.rect t)).set ↔ _
  rw [View.set_slice_whole, Rect.mem_set_unit]
  exact Iff.rfl

/-- Row r of the array lies in the block of grid point r / 2000, and every point writes its block back. -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto5 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto6 ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto7 ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

end R0

/-- After region 0 the projection's array holds the projection of the features: x · W + b on every row. -/
theorem region0_h (c : Dev nD) :
    (dat0 V c).arrAt 5 cfg0.N = Spec.proj (V c main_arg0) (V c main_arg1) (Spec.rowVec (V c main_v0)) :=
  (dat0 V c).arrAt_eq_of_cover 5 _ (fun t _ => R0.flushed5_eq V c t) R0.cover5

/-- After region 0 the first message array holds the projection times the first layer's first weight. -/
theorem region0_ma (c : Dev nD) :
    (dat0 V c).arrAt 6 cfg0.N = Spec.mm (Spec.proj (V c main_arg0) (V c main_arg1) (Spec.rowVec (V c main_v0))) (V c main_arg3) :=
  (dat0 V c).arrAt_eq_of_cover 6 _ (fun t _ => R0.flushed6_eq V c t) R0.cover6

/-- After region 0 the second message array holds the projection times the first layer's second weight. -/
theorem region0_mb (c : Dev nD) :
    (dat0 V c).arrAt 7 cfg0.N = Spec.mm (Spec.proj (V c main_arg0) (V c main_arg1) (Spec.rowVec (V c main_v0))) (V c main_arg5) :=
  (dat0 V c).arrAt_eq_of_cover 7 _ (fun t _ => R0.flushed7_eq V c t) R0.cover7

end Cert.KSide

end
-- ==== Proof.Region1.lean ====
/-
  The value of the second pipelined region — the first layer's combine step with the next layer's two dense
  products — as whole-array functions over the extended reals.

  The region walks 25 grid points. Point t stages rows 2000·t … 2000·t + 1999 of the node features h and of the two
  neighbourhood aggregates A and B, and the whole of the two bias rows a and b, of the self-loop matrix L and of the
  two next-layer weight matrices. On those blocks the body computes, entry by entry,
  max((((A + a) + B) + b) + h·L, 0) — the layer — and the products of that block with the two weight matrices.
  Entry (p, q) of the layer depends only on row p of h, A and B, and entry (p, q) of a product only on row p of the
  layer; so what point t leaves in an output block is exactly rows 2000·t … of the whole-array layer, respectively of
  the layer times the weights. The 25 blocks tile the 50000 rows (row r lies in block r / 2000), hence each output
  array ends holding the whole-array function.

  Steps: the payloads at an entry (`pay1_apply`, `pay3_apply`, `pay4_apply`); each staged input block as rows of
  its array (`iblk_*`); the payloads on row blocks as row blocks of the whole-array functions (`pay*_rows`); what a
  point writes back (`flushed*_eq`); the cover (`cover*`); the three arrays.
-/
import proofs.«123243_j17592186044980_2_alg».proof.Proof.Gen.KernelIdeal.Frame
import proofs.«123243_j17592186044980_2_alg».proof.Proof.Spec
import proofs.«123243_j17592186044980_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KSide

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

namespace R1

/-- A one-row array broadcast down the rows: entry (p, q) is the row's entry q. -/
theorem bcast_row (x : Vec Ideal S1x128 .f32) (p : Fin 2000) (q : Fin 128) :
    broadcastTo S2000x128 x broadcasts_S1x128_S2000x128 (ix2 p q) = x (ix2 (0 : Fin 1) q) := by
  refine broadcastTo_apply _ _ _ _ (fun a => ?_)
  match a with
  | ⟨0, _⟩ => rfl
  | ⟨1, _⟩ => rfl

/-- The layer's payload at an entry: the four summands added one after the other, then row p of h against column q
    of the self-loop matrix, clamped below by the zero word. -/
theorem pay1_apply (a : Vec Ideal S2000x128 .f32) (ba : Vec Ideal S1x128 .f32) (b : Vec Ideal S2000x128 .f32)
    (bb : Vec Ideal S1x128 .f32) (h : Vec Ideal S2000x128 .f32) (L : Vec Ideal S128x128 .f32) (p : Fin 2000) (q : Fin 128) :
    k1_pay1 (F := Ideal) a ba b bb h L (ix2 p q)
      = max ((((a (ix2 p q) + ba (ix2 (0 : Fin 1) q)) + b (ix2 p q)) + bb (ix2 (0 : Fin 1) q))
          + ∑ k : Fin 128, h (ix2 p k) * L (ix2 k q)) (Ideal.ofBits .f32 0x00000000#32) := by
  unfold k1_pay1
  simp only [shapeCast_self]
  have hm : matmul (F := Ideal) dot_S2000x128_S128x128_S2000x128_1_0_0_1_n_n none (truncf .bf16 h bitsLt_bf16_f32)
      (truncf .bf16 L bitsLt_bf16_f32) (constant S2000x128 .f32 0x00000000#32) (ix2 p q)
        = ∑ k : Fin 128, h (ix2 p k) * L (ix2 k q) :=
    Cert.PlainDot.matmul_zero_apply 2000 128 128 none _ _ _
  show max ((((a (ix2 p q) + broadcastTo S2000x128 ba broadcasts_S1x128_S2000x128 (ix2 p q)) + b (ix2 p q))
      + broadcastTo S2000x128 bb broadcasts_S1x128_S2000x128 (ix2 p q))
      + matmul (F := Ideal) dot_S2000x128_S128x128_S2000x128_1_0_0_1_n_n none (truncf .bf16 h bitsLt_bf16_f32)
          (truncf .bf16 L bitsLt_bf16_f32) (constant S2000x128 .f32 0x00000000#32) (ix2 p q))
      (Ideal.ofBits .f32 0x00000000#32) = _
  rw [bcast_row, bcast_row, hm]

/-- The zero offset pair, spelt as a constant function. -/
theorem hz : (![0, 0] : Fin 2 → Nat) = fun _ => 0 := funext fun a => by fin_cases a <;> rfl

/-- Rows 2000·n … 2000·n + 1999 of a node-feature array. -/
def rowBlk (X : S50000x128.Idx → EReal) (n : Nat) (hn : n < 25) : S2000x128.Idx → EReal :=
  fun y => X (ix2 (⟨n * 2000 + (y 0).val, by have := (y 0).isLt; have : (y 0).val < 2000 := this; omega⟩ : Fin 50000) (y 1))

/-- A grid point's number is below 25. -/
theorem tlt (t : Fin cfg1.N) : t.val < 25 := t.isLt

/-- The block index of every window at every grid point: the row-block windows sit at block (t, 0), the whole-array
    windows at block (0, 0). Decided over the 25 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The staged block of h at point t is rows 2000·t … of h. -/
theorem iblk_h (c : Dev nD) (t : Fin cfg1.N) :
    (iblk1 V c 0 t : Vec Ideal S2000x128 .f32) = rowBlk (V c main_v5_0) t.val (tlt t) := by
  funext y
  unfold iblk1 rowBlk
  rw [View.read_apply]
  show V c main_v5_0 _ = V c main_v5_0 _
  refine congrArg (V c main_v5_0) ?_
  obtain ⟨e0, e1, -⟩ := idx_facts t
  funext a
  apply Fin.ext
  match a with
  | ⟨0, _⟩ => show win1_0.index t (0 : Fin 2) * 2000 + 1 * (y 0).val = t.val * 2000 + (y 0).val; rw [e0]; omega
  | ⟨1, _⟩ => show win1_0.index t (1 : Fin 2) * 128 + 1 * (y 1).val = (y 1).val; rw [e1]; omega

/-- The staged block of the first aggregate at point t is its rows 2000·t …. -/
theorem iblk_A (c : Dev nD) (t : Fin cfg1.N) :
    (iblk1 V c 1 t : Vec Ideal S2000x128 .f32) = rowBlk (V c main_v30) t.val (tlt t) := by
  funext y
  unfold iblk1 rowBlk
  rw [View.read_apply]
  show V c main_v30 _ = V c main_v30 _
  refine congrArg (V c main_v30) ?_
  obtain ⟨-, -, e0, e1, -⟩ := idx_facts t
  funext a
  apply Fin.ext
  match a with
  | ⟨0, _⟩ => show win1_1.index t (0 : Fin 2) * 2000 + 1 * (y 0).val = t.val * 2000 + (y 0).val; rw [e0]; omega
  | ⟨1, _⟩ => show win1_1.index t (1 : Fin 2) * 128 + 1 * (y 1).val = (y 1).val; rw [e1]; omega

/-- The staged block of the second aggregate at point t is its rows 2000·t …. -/
theorem iblk_B (c : Dev nD) (t : Fin cfg1.N) :
    (iblk1 V c 2 t : Vec Ideal S2000x128 .f32) = rowBlk (V c main_v43) t.val (tlt t) := by
  funext y
  unfold iblk1 rowBlk
  rw [View.read_apply]
  show V c main_v43 _ = V c main_v43 _
  refine congrArg (V c main_v43) ?_
  obtain ⟨-, -, -, -, e0, e1, -⟩ := idx_facts t
  funext a
  apply Fin.ext
  match a with
  | ⟨0, _⟩ => show win1_2.index t (0 : Fin 2) * 2000 + 1 * (y 0).val = t.val * 2000 + (y 0).val; rw [e0]; omega
  | ⟨1, _⟩ => show win1_2.index t (1 : Fin 2) * 128 + 1 * (y 1).val = (y 1).val; rw [e1]; omega

/-- The first bias row is staged whole. -/
theorem iblk_ba (c : Dev nD) (t : Fin cfg1.N) :
    (iblk1 V c 3 t : Vec Ideal S1x128 .f32) = V c main_v1 := by
  funext y
  unfold iblk1
  rw [View.read_apply]
  show V c main_v1 _ = V c main_v1 _
  refine congrArg (V c main_v1) ?_
  obtain ⟨-, -, -, -, -, -, e0, e1, -⟩ := idx_facts t
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second bias row is staged whole. -/
theorem iblk_bb (c : Dev nD) (t : Fin cfg1.N) :
    (iblk1 V c 4 t : Vec Ideal S1x128 .f32) = V c main_v2 := by
  funext y
  unfold iblk1
  rw [View.read_apply]
  show V c main_v2 _ = V c main_v2 _
  refine congrArg (V c main_v2) ?_
  obtain ⟨-, -, -, -, -, -, -, -, e0, e1, -⟩ := idx_facts t
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The self-loop matrix is staged whole. -/
theorem iblk_L (c : Dev nD) (t : Fin cfg1.N) :
    (iblk1 V c 5 t : Vec Ideal S128x128 .f32) = V c main_arg7 := by
  funext y
  unfold iblk1
  rw [View.read_apply]
  show V c main_arg7 _ = V c main_arg7 _
  refine congrArg (V c main_arg7) ?_
  obtain ⟨-, -, -, -, -, -, -, -, -, -, e0, e1, -⟩ := idx_facts t
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The first next-layer weight matrix is staged whole. -/
theorem iblk_Wa (c : Dev nD) (t : Fin cfg1.N) :
    (iblk1 V c 6 t : Vec Ideal S128x128 .f32) = V c main_arg8 := by
  funext y
  unfold iblk1
  rw [View.read_apply]
  show V c main_arg8 _ = V c main_arg8 _
  refine congrArg (V c main_arg8) ?_
  obtain ⟨-, -, -, -, -, -, -, -, -, -, -, -, e0, e1, -⟩ := idx_facts t
  funext a
  apply Fin.ext
  match a with
  | ⟨0, _⟩ => show win1_6.index t (0 : Fin 2) * 128 + 1 * (y 0).val = (y 0).val; rw [e0]; omega
  | ⟨1, _⟩ => show win1_6.index t (1 : Fin 2) * 128 + 1 * (y 1).val = (y 1).val; rw [e1]; omega

/-- The second next-layer weight matrix is staged whole. -/
theorem iblk_Wb (c : Dev nD) (t : Fin cfg1.N) :
    (iblk1 V c 7 t : Vec Ideal S128x128 .f32) = V c main_arg10 := by
  funext y
  unfold iblk1
  rw [View.read_apply]
  show V c main_arg10 _ = V c main_arg10 _
  refine congrArg (V c main_arg10) ?_
  obtain ⟨-, -, -, -, -, -, -, -, -, -, -, -, -, -, e0, e1, -⟩ := idx_facts t
  funext a
  apply Fin.ext
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega

/-- A whole-array function read through output block t of window 8 is its rows 2000·t …. -/
theorem read_blk8 (t : Fin cfg1.N) (G : S50000x128.Idx → EReal) :
    (((cfg1.win 8).blk t).view.read (Elt Ideal) G : S2000x128.Idx → EReal) = rowBlk G t.val (tlt t) := by
  funext y
  unfold rowBlk
  rw [View.read_apply]
  refine congrArg G ?_
  obtain ⟨-, -, -, -, -, -, -, -, -, -, -, -, -, -, -, -, e0, e1, -⟩ := idx_facts t
  funext a
  apply Fin.ext
  match a with
  | ⟨0, _⟩ => show win1_8.index t (0 : Fin 2) * 2000 + 1 * (y 0).val = t.val * 2000 + (y 0).val; rw [e0]; omega
  | ⟨1, _⟩ => show win1_8.index t (1 : Fin 2) * 128 + 1 * (y 1).val = (y 1).val; rw [e1]; omega

/-- The layer's payload on the row blocks of its inputs is the row block of the layer. -/
theorem pay1_rows (H A B : S50000x128.Idx → EReal) (ba bb : S1x128.Idx → EReal) (L : S128x128.Idx → EReal)
    (n : Nat) (hn : n < 25) :
    k1_pay1 (F := Ideal) (rowBlk A n hn) ba (rowBlk B n hn) bb (rowBlk H n hn) L
      = rowBlk (Spec.layerK H A B (Spec.rowVec ba) (Spec.rowVec bb) L) n hn := by
  funext y
  obtain ⟨p, q, rfl⟩ : ∃ (p : Fin 2000) (q : Fin 128), y = ix2 p q := ⟨y 0, y 1, eq_ix2 y⟩
  rw [pay1_apply]
  rfl

/-- The layer of the region's input arrays. -/
abbrev Gh (c : Dev nD) : S50000x128.Idx → EReal :=
  Spec.layerK (V c main_v5_0) (V c main_v30) (V c main_v43) (Spec.rowVec (V c main_v1)) (Spec.rowVec (V c main_v2)) (V c main_arg7)

/-- What point t writes back to the first output is block t of the layer. -/
theorem flushed8_eq (c : Dev nD) (t : Fin cfg1.N) :
    (dat1 V c).flushed 8 t = ((cfg1.win 8).blk t).view.read (Elt Ideal) (Gh V c) := by
  show (cfg1.win 8).cut (grid1.coords t) ((dat1 V c).after 8 t) = _
  rw [after1_8]
  unfold out1_8
  rw [View.canon_unit_zero hz]
  simp only [View.ld_unit_zero (S := S2000x128) hz, View.ld_unit_zero (S := S1x128) hz, View.ld_unit_zero (S := S128x128) hz]
  rw [iblk_h, iblk_A, iblk_B, iblk_ba, iblk_bb, iblk_L]
  refine Eq.trans ?_ (read_blk8 t (Gh V c)).symm
  exact pay1_rows (V c main_v5_0) (V c main_v30) (V c main_v43) (V c main_v1) (V c main_v2) (V c main_arg7) t.val (tlt t)

/-- An index of the array is in point t's block iff each coordinate is in the block's range. -/
theorem mem_blk8 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v44_0).slice (win1_8.rect t)).set ↔ _
  rw [View.set_slice_whole, Rect.mem_set_unit]
  exact Iff.rfl

/-- Row r lies in the block of point r / 2000. -/
theorem cover8 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hlt : (i 0).val / 2000 < 25 := by omega
  refine ⟨(⟨(i 0).val / 2000, hlt⟩ : Fin cfg1.N), flush1_8 _, ?_⟩
  rw [mem_blk8]
  obtain ⟨-, -, -, -, -, -, -, -, -, -, -, -, -, -, -, -, e0, e1, -⟩ := idx_facts (⟨(i 0).val / 2000, hlt⟩ : Fin cfg1.N)
  intro a
  match a with
  | ⟨0, _⟩ =>
    show win1_8.index _ (0 : Fin 2) * 2000 ≤ (i 0).val ∧ (i 0).val < win1_8.index _ (0 : Fin 2) * 2000 + 2000
    rw [e0]; show (i 0).val / 2000 * 2000 ≤ (i 0).val ∧ (i 0).val < (i 0).val / 2000 * 2000 + 2000; omega
  | ⟨1, _⟩ =>
    show win1_8.index _ (1 : Fin 2) * 128 ≤ (i 1).val ∧ (i 1).val < win1_8.index _ (1 : Fin 2) * 128 + 128
    rw [e1]; omega

/-- The first product's payload at an entry: row p of the layer's block against column q of the weights. -/
theorem pay3_apply (a : Vec Ideal S2000x128 .f32) (ba : Vec Ideal S1x128 .f32) (b : Vec Ideal S2000x128 .f32)
    (bb : Vec Ideal S1x128 .f32) (h : Vec Ideal S2000x128 .f32) (L W : Vec Ideal S128x128 .f32) (p : Fin 2000) (q : Fin 128) :
    k1_pay3 (F := Ideal) a ba b bb h L W (ix2 p q)
      = ∑ k : Fin 128, k1_pay1 (F := Ideal) a ba b bb h L (ix2 p k) * W (ix2 k q) := by
  unfold k1_pay3 k1_pay2
  show matmul (F := Ideal) dot_S2000x128_S128x128_S2000x128_1_0_0_1_n_n none
      (truncf .bf16 (k1_pay1 (F := Ideal) a ba b bb h L) bitsLt_bf16_f32) (truncf .bf16 W bitsLt_bf16_f32)
      (constant S2000x128 .f32 0x00000000#32) (ix2 p q) = _
  exact Cert.PlainDot.matmul_zero_apply 2000 128 128 none _ _ _

/-- The second product's payload at an entry. -/
theorem pay4_apply (a : Vec Ideal S2000x128 .f32) (ba : Vec Ideal S1x128 .f32) (b : Vec Ideal S2000x128 .f32)
    (bb : Vec Ideal S1x128 .f32) (h : Vec Ideal S2000x128 .f32) (L W : Vec Ideal S128x128 .f32) (p : Fin 2000) (q : Fin 128) :
    k1_pay4 (F := Ideal) a ba b bb h L W (ix2 p q)
      = ∑ k : Fin 128, k1_pay1 (F := Ideal) a ba b bb h L (ix2 p k) * W (ix2 k q) := by
  unfold k1_pay4 k1_pay2
  show matmul (F := Ideal) dot_S2000x128_S128x128_S2000x128_1_0_0_1_n_n none
      (truncf .bf16 (k1_pay1 (F := Ideal) a ba b bb h L) bitsLt_bf16_f32) (truncf .bf16 W bitsLt_bf16_f32)
      (constant S2000x128 .f32 0x00000000#32) (ix2 p q) = _
  exact Cert.PlainDot.matmul_zero_apply 2000 128 128 none _ _ _

/-- The first product's payload on the row blocks of the inputs is the row block of layer · W. -/
theorem pay3_rows (H A B : S50000x128.Idx → EReal) (ba bb : S1x128.Idx → EReal) (L W : S128x128.Idx → EReal)
    (n : Nat) (hn : n < 25) :
    k1_pay3 (F := Ideal) (rowBlk A n hn) ba (rowBlk B n hn) bb (rowBlk H n hn) L W
      = rowBlk (Spec.mm (Spec.layerK H A B (Spec.rowVec ba) (Spec.rowVec bb) L) W) n hn := by
  funext y
  obtain ⟨p, q, rfl⟩ : ∃ (p : Fin 2000) (q : Fin 128), y = ix2 p q := ⟨y 0, y 1, eq_ix2 y⟩
  rw [pay3_apply, pay1_rows]
  rfl

/-- The second product's payload on the row blocks of the inputs is the row block of layer · W. -/
theorem pay4_rows (H A B : S50000x128.Idx → EReal) (ba bb : S1x128.Idx → EReal) (L W : S128x128.Idx → EReal)
    (n : Nat) (hn : n < 25) :
    k1_pay4 (F := Ideal) (rowBlk A n hn) ba (rowBlk B n hn) bb (rowBlk H n hn) L W
      = rowBlk (Spec.mm (Spec.layerK H A B (Spec.rowVec ba) (Spec.rowVec bb) L) W) n hn := by
  funext y
  obtain ⟨p, q, rfl⟩ : ∃ (p : Fin 2000) (q : Fin 128), y = ix2 p q := ⟨y 0, y 1, eq_ix2 y⟩
  rw [pay4_apply, pay1_rows]
  rfl

/-- A whole-array function read through output block t of window 9 is its rows 2000·t …. -/
theorem read_blk9 (t : Fin cfg1.N) (G : S50000x128.Idx → EReal) :
    (((cfg1.win 9).blk t).view.read (Elt Ideal) G : S2000x128.Idx → EReal) = rowBlk G t.val (tlt t) := by
  funext y
  unfold rowBlk
  rw [View.read_apply]
  refine congrArg G ?_
  obtain ⟨-, -, -, -, -, -, -, -, -, -, -, -, -, -, -, -, -, -, e0, e1, -⟩ := idx_facts t
  funext a
  apply Fin.ext
  match a with
  | ⟨0, _⟩ => show win1_9.index t (0 : Fin 2) * 2000 + 1 * (y 0).val = t.val * 2000 + (y 0).val; rw [e0]; omega
  | ⟨1, _⟩ => show win1_9.index t (1 : Fin 2) * 128 + 1 * (y 1).val = (y 1).val; rw [e1]; omega

/-- The layer times the first edge type's next-layer weights. -/
abbrev Gma (c : Dev nD) : S50000x128.Idx → EReal := Spec.mm (Gh V c) (V c main_arg8)

/-- What point t writes back to this output is block t of the product. -/
theorem flushed9_eq (c : Dev nD) (t : Fin cfg1.N) :
    (dat1 V c).flushed 9 t = ((cfg1.win 9).blk t).view.read (Elt Ideal) (Gma V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S1x128) hz, View.ld_unit_zero (S := S128x128) hz]
  rw [iblk_h, iblk_A, iblk_B, iblk_ba, iblk_bb, iblk_L, iblk_Wa]
  refine Eq.trans ?_ (read_blk9 t (Gma V c)).symm
  exact pay3_rows (V c main_v5_0) (V c main_v30) (V c main_v43) (V c main_v1) (V c main_v2) (V c main_arg7) (V c main_arg8) t.val (tlt t)

/-- An index of the array is in point t's block iff each coordinate is in the block's range. -/
theorem mem_blk9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v44_1).slice (win1_9.rect t)).set ↔ _
  rw [View.set_slice_whole, Rect.mem_set_unit]
  exact Iff.rfl

/-- Row r lies in the block of point r / 2000. -/
theorem cover9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hlt : (i 0).val / 2000 < 25 := by omega
  refine ⟨(⟨(i 0).val / 2000, hlt⟩ : Fin cfg1.N), flush1_9 _, ?_⟩
  rw [mem_blk9]
  obtain ⟨-, -, -, -, -, -, -, -, -, -, -, -, -, -, -, -, -, -, e0, e1, -⟩ := idx_facts (⟨(i 0).val / 2000, hlt⟩ : Fin cfg1.N)
  intro a
  match a with
  | ⟨0, _⟩ =>
    show win1_9.index _ (0 : Fin 2) * 2000 ≤ (i 0).val ∧ (i 0).val < win1_9.index _ (0 : Fin 2) * 2000 + 2000
    rw [e0]; show (i 0).val / 2000 * 2000 ≤ (i 0).val ∧ (i 0).val < (i 0).val / 2000 * 2000 + 2000; omega
  | ⟨1, _⟩ =>
    show win1_9.index _ (1 : Fin 2) * 128 ≤ (i 1).val ∧ (i 1).val < win1_9.index _ (1 : Fin 2) * 128 + 128
    rw [e1]; omega

/-- A whole-array function read through output block t of window 10 is its rows 2000·t …. -/
theorem read_blk10 (t : Fin cfg1.N) (G : S50000x128.Idx → EReal) :
    (((cfg1.win 10).blk t).view.read (Elt Ideal) G : S2000x128.Idx → EReal) = rowBlk G t.val (tlt t) := by
  funext y
  unfold rowBlk
  rw [View.read_apply]
  refine congrArg G ?_
  obtain ⟨-, -, -, -, -, -, -, -, -, -, -, -, -, -, -, -, -, -, -, -, e0, e1⟩ := idx_facts t
  funext a
  apply Fin.ext
  match a with
  | ⟨0, _⟩ => show win1_10.index t (0 : Fin 2) * 2000 + 1 * (y 0).val = t.val * 2000 + (y 0).val; rw [e0]; omega
  | ⟨1, _⟩ => show win1_10.index t (1 : Fin 2) * 128 + 1 * (y 1).val = (y 1).val; rw [e1]; omega

/-- The layer times the second edge type's next-layer weights. -/
abbrev Gmb (c : Dev nD) : S50000x128.Idx → EReal := Spec.mm (Gh V c) (V c main_arg10)

/-- What point t writes back to this output is block t of the product. -/
theorem flushed10_eq (c : Dev nD) (t : Fin cfg1.N) :
    (dat1 V c).flushed 10 t = ((cfg1.win 10).blk t).view.read (Elt Ideal) (Gmb V c) := by
  show (cfg1.win 10).cut (grid1.coords t) ((dat1 V c).after 10 t) = _
  rw [after1_10]
  unfold out1_10
  rw [View.canon_unit_zero hz]
  simp only [View.ld_unit_zero (S := S2000x128) hz, View.ld_unit_zero (S := S1x128) hz, View.ld_unit_zero (S := S128x128) hz]
  rw [iblk_h, iblk_A, iblk_B, iblk_ba, iblk_bb, iblk_L, iblk_Wb]
  refine Eq.trans ?_ (read_blk10 t (Gmb V c)).symm
  exact pay4_rows (V c main_v5_0) (V c main_v30) (V c main_v43) (V c main_v1) (V c main_v2) (V c main_arg7) (V c main_arg10) t.val (tlt t)

/-- An index of the array is in point t's block iff each coordinate is in the block's range. -/
theorem mem_blk10 (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v44_2).slice (win1_10.rect t)).set ↔ _
  rw [View.set_slice_whole, Rect.mem_set_unit]
  exact Iff.rfl

/-- Row r lies in the block of point r / 2000. -/
theorem cover10 (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hlt : (i 0).val / 2000 < 25 := by omega
  refine ⟨(⟨(i 0).val / 2000, hlt⟩ : Fin cfg1.N), flush1_10 _, ?_⟩
  rw [mem_blk10]
  obtain ⟨-, -, -, -, -, -, -, -, -, -, -, -, -, -, -, -, -, -, -, -, e0, e1⟩ := idx_facts (⟨(i 0).val / 2000, hlt⟩ : Fin cfg1.N)
  intro a
  match a with
  | ⟨0, _⟩ =>
    show win1_10.index _ (0 : Fin 2) * 2000 ≤ (i 0).val ∧ (i 0).val < win1_10.index _ (0 : Fin 2) * 2000 + 2000
    rw [e0]; show (i 0).val / 2000 * 2000 ≤ (i 0).val ∧ (i 0).val < (i 0).val / 2000 * 2000 + 2000; omega
  | ⟨1, _⟩ =>
    show win1_10.index _ (1 : Fin 2) * 128 ≤ (i 1).val ∧ (i 1).val < win1_10.index _ (1 : Fin 2) * 128 + 128
    rw [e1]; omega

end R1

theorem region1_h (c : Dev nD) :
    (dat1 V c).arrAt 8 cfg1.N = Spec.layerK (V c main_v5_0) (V c main_v30) (V c main_v43) (Spec.rowVec (V c main_v1)) (Spec.rowVec (V c main_v2)) (V c main_arg7) :=
  (dat1 V c).arrAt_eq_of_cover 8 (R1.Gh V c) (fun t _ => R1.flushed8_eq V c t) R1.cover8

theorem region1_ma (c : Dev nD) :
    (dat1 V c).arrAt 9 cfg1.N = Spec.mm (Spec.layerK (V c main_v5_0) (V c main_v30) (V c main_v43) (Spec.rowVec (V c main_v1)) (Spec.rowVec (V c main_v2)) (V c main_arg7)) (V c main_arg8) :=
  (dat1 V c).arrAt_eq_of_cover 9 (R1.Gma V c) (fun t _ => R1.flushed9_eq V c t) R1.cover9

theorem region1_mb (c : Dev nD) :
    (dat1 V c).arrAt 10 cfg1.N = Spec.mm (Spec.layerK (V c main_v5_0) (V c main_v30) (V c main_v43) (Spec.rowVec (V c main_v1)) (Spec.rowVec (V c main_v2)) (V c main_arg7)) (V c main_arg10) :=
  (dat1 V c).arrAt_eq_of_cover 10 (R1.Gmb V c) (fun t _ => R1.flushed10_eq V c t) R1.cover10

end Cert.KSide

end
-- ==== Proof.Region2.lean ====
/-
  The value of the third pipelined region: the second layer's combine step, as a function of whole arrays.

  The region walks the 50000 × 128 output in 25 row blocks of 2000 rows. At grid point t it holds row block t of
  the layer's input h and of the two neighbourhood aggregates A and B, and the whole of the two bias rows a, b
  (1 × 128 each) and of the self-loop matrix L (128 × 128). Its body leaves in the output block, at entry (p, q),

      max ((((A(p, q) + a(0, q)) + B(p, q)) + b(0, q)) + Σ_k h(p, k) · L(k, q), 0),

  the zero being the float word zero read on the extended reals and left unevaluated (`pay_apply`): the casts of a
  shape to itself and the narrowing of the matrix unit's operands are the identity on the extended reals, the
  broadcast of a bias row reads its one row, and the matrix unit's product into a zero accumulator is the sum
  over the contracted axis.

  Entry (p, q) of block t is the array's entry (2000 · t + p, q): the three row-block windows sit at the same
  row block as the output, and the bias rows and the matrix at block (0, 0) (`idx_facts`, decided over the 25
  points). So what point t writes back is row block t of ONE whole-array function, the layer
  max ((((A + a) + B) + b) + h · L, 0) of the arrays the region finds at entry (`entry_eq`, `flushed_eq`). Every
  index (n, c) of the output lies in the block of the point whose row block is n / 2000 (`cover`), every point
  writes its block back, and the blocks are written with values of that one function; hence after the last point
  the output array is the layer itself (`region2_h`).
-/
import proofs.«123243_j17592186044980_2_alg».proof.Proof.Gen.KernelIdeal.Frame
import proofs.«123243_j17592186044980_2_alg».proof.Proof.Spec
import proofs.«123243_j17592186044980_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KSide

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

namespace R2

theorem hz : (![0, 0] : Fin 2 → Nat) = fun _ => 0 := funext fun a => by fin_cases a <;> rfl

theorem pay_apply (a : Vec Ideal S2000x128 .f32) (ba : Vec Ideal S1x128 .f32) (b : Vec Ideal S2000x128 .f32)
    (bb : Vec Ideal S1x128 .f32) (h : Vec Ideal S2000x128 .f32) (L : Vec Ideal S128x128 .f32) (p : Fin 2000) (q : Fin 128) :
    k2_pay1 (F := Ideal) a ba b bb h L (ix2 p q) =
      max ((((a (ix2 p q) + ba (ix2 (0 : Fin 1) q)) + b (ix2 p q)) + bb (ix2 (0 : Fin 1) q))
        + ∑ k : Fin 128, h (ix2 p k) * L (ix2 k q)) (Ideal.ofBits .f32 0x00000000#32) := by
  unfold k2_pay1
  simp only [shapeCast_self]
  refine congrArg₂ max ?_ rfl
  refine congrArg₂ (· + ·) ?_ ?_
  · refine congrArg₂ (· + ·) (congrArg₂ (· + ·) (congrArg₂ (· + ·) rfl ?_) rfl) ?_
    · exact broadcastTo_1b_ab_apply ba _ p q
    · exact broadcastTo_1b_ab_apply bb _ p q
  · exact Cert.PlainDot.matmul_zero_apply 2000 128 128 none _ _ _

/-- The block index maps, decided once over the 25 grid points: the three row-block inputs move with the output
    along the rows, every window sits at column block 0, and the two bias rows and the matrix stay at block (0, 0). -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 24 ∧ win2_6.index t (1 : Fin 2) = 0 :=
  (by decide +kernel : ∀ t : Fin grid2.N, _)

/-- Every row block of the output is some grid point's. -/
theorem idx_onto : ∀ r : Fin 25, ∃ t : Fin cfg2.N, win2_6.index t = ![r.val, 0] :=
  (by decide +kernel : ∀ r : Fin 25, ∃ t : Fin grid2.N, win2_6.index t = ![r.val, 0])

/-- Entry (p, q) of aggregate A's block is the array's entry where the output block's entry (p, q) lands. -/
theorem emb_A (t : Fin cfg2.N) (p : Fin 2000) (q : Fin 128) :
    (((cfg2.win 1).blk t).view.emb (ix2 p q) : Spec.SND.Idx) = ((cfg2.win 6).blk t).view.emb (ix2 p q) := by
  obtain ⟨e00, e01, e10, e11, e20, e21, e30, e31, e40, e41, e50, e51, e60, e61⟩ := idx_facts t
  funext a; apply Fin.ext
  match a with
  | ⟨0, _⟩ => show win2_1.index t (0 : Fin 2) * 2000 + 1 * p.val = win2_6.index t (0 : Fin 2) * 2000 + 1 * p.val; omega
  | ⟨1, _⟩ => show win2_1.index t (1 : Fin 2) * 128 + 1 * q.val = win2_6.index t (1 : Fin 2) * 128 + 1 * q.val; omega

/-- The same for aggregate B's block. -/
theorem emb_B (t : Fin cfg2.N) (p : Fin 2000) (q : Fin 128) :
    (((cfg2.win 2).blk t).view.emb (ix2 p q) : Spec.SND.Idx) = ((cfg2.win 6).blk t).view.emb (ix2 p q) := by
  obtain ⟨e00, e01, e10, e11, e20, e21, e30, e31, e40, e41, e50, e51, e60, e61⟩ := idx_facts t
  funext a; apply Fin.ext
  match a with
  | ⟨0, _⟩ => show win2_2.index t (0 : Fin 2) * 2000 + 1 * p.val = win2_6.index t (0 : Fin 2) * 2000 + 1 * p.val; omega
  | ⟨1, _⟩ => show win2_2.index t (1 : Fin 2) * 128 + 1 * q.val = win2_6.index t (1 : Fin 2) * 128 + 1 * q.val; omega

/-- Row p of the input block is the row of the array that the output block's row p is, at every column k. -/
theorem emb_h (t : Fin cfg2.N) (p : Fin 2000) (q k : Fin 128) :
    (((cfg2.win 0).blk t).view.emb (ix2 p k) : Spec.SND.Idx)
      = ix2 ((((cfg2.win 6).blk t).view.emb (ix2 p q) : Spec.SND.Idx) 0) k := by
  obtain ⟨e00, e01, e10, e11, e20, e21, e30, e31, e40, e41, e50, e51, e60, e61⟩ := idx_facts t
  funext a; apply Fin.ext
  match a with
  | ⟨0, _⟩ => show win2_0.index t (0 : Fin 2) * 2000 + 1 * p.val = win2_6.index t (0 : Fin 2) * 2000 + 1 * p.val; omega
  | ⟨1, _⟩ => show win2_0.index t (1 : Fin 2) * 128 + 1 * k.val = k.val; omega

/-- The first bias row's block is the whole row: its entry (0, q) is the array's at the output entry's column. -/
theorem emb_ba (t : Fin cfg2.N) (p : Fin 2000) (q : Fin 128) :
    (((cfg2.win 3).blk t).view.emb (ix2 (0 : Fin 1) q) : Spec.S1D.Idx)
      = ix2 (0 : Fin 1) ((((cfg2.win 6).blk t).view.emb (ix2 p q) : Spec.SND.Idx) 1) := by
  obtain ⟨e00, e01, e10, e11, e20, e21, e30, e31, e40, e41, e50, e51, e60, e61⟩ := idx_facts t
  funext a; apply Fin.ext
  match a with
  | ⟨0, _⟩ => show win2_3.index t (0 : Fin 2) * 1 + 1 * 0 = 0; omega
  | ⟨1, _⟩ => show win2_3.index t (1 : Fin 2) * 128 + 1 * q.val = win2_6.index t (1 : Fin 2) * 128 + 1 * q.val; omega

/-- The same for the second bias row. -/
theorem emb_bb (t : Fin cfg2.N) (p : Fin 2000) (q : Fin 128) :
    (((cfg2.win 4).blk t).view.emb (ix2 (0 : Fin 1) q) : Spec.S1D.Idx)
      = ix2 (0 : Fin 1) ((((cfg2.win 6).blk t).view.emb (ix2 p q) : Spec.SND.Idx) 1) := by
  obtain ⟨e00, e01, e10, e11, e20, e21, e30, e31, e40, e41, e50, e51, e60, e61⟩ := idx_facts t
  funext a; apply Fin.ext
  match a with
  | ⟨0, _⟩ => show win2_4.index t (0 : Fin 2) * 1 + 1 * 0 = 0; omega
  | ⟨1, _⟩ => show win2_4.index t (1 : Fin 2) * 128 + 1 * q.val = win2_6.index t (1 : Fin 2) * 128 + 1 * q.val; omega

/-- The matrix's block is the whole matrix: its entry (k, q) is the array's at row k and the output entry's column. -/
theorem emb_L (t : Fin cfg2.N) (p : Fin 2000) (q k : Fin 128) :
    (((cfg2.win 5).blk t).view.emb (ix2 k q) : Spec.SDD.Idx)
      = ix2 k ((((cfg2.win 6).blk t).view.emb (ix2 p q) : Spec.SND.Idx) 1) := by
  obtain ⟨e00, e01, e10, e11, e20, e21, e30, e31, e40, e41, e50, e51, e60, e61⟩ := idx_facts t
  funext a; apply Fin.ext
  match a with
  | ⟨0, _⟩ => show win2_5.index t (0 : Fin 2) * 128 + 1 * k.val = k.val; omega
  | ⟨1, _⟩ => show win2_5.index t (1 : Fin 2) * 128 + 1 * q.val = win2_6.index t (1 : Fin 2) * 128 + 1 * q.val; omega

/-- The body's result at entry (p, q) of a block, when the blocks hold the arrays' entries that a layer at the array
    index i reads: row (i 0) of the input, entry i of the two aggregates, column (i 1) of the bias rows and of the matrix. -/
theorem entry_eq (X A B : Spec.SND.Idx → EReal) (ba bb : Spec.S1D.Idx → EReal) (L : Spec.SDD.Idx → EReal)
    (xb ab bb' : Vec Ideal S2000x128 .f32) (bab bbb : Vec Ideal S1x128 .f32) (Lb : Vec Ideal S128x128 .f32)
    (i : Spec.SND.Idx) (p : Fin 2000) (q : Fin 128)
    (hx : ∀ k : Fin 128, xb (ix2 p k) = X (ix2 (i 0) k))
    (ha : ab (ix2 p q) = A i) (hb : bb' (ix2 p q) = B i)
    (hba : bab (ix2 (0 : Fin 1) q) = ba (ix2 (0 : Fin 1) (i 1)))
    (hbb : bbb (ix2 (0 : Fin 1) q) = bb (ix2 (0 : Fin 1) (i 1)))
    (hL : ∀ k : Fin 128, Lb (ix2 k q) = L (ix2 k (i 1))) :
    k2_pay1 (F := Ideal) ab bab bb' bbb xb Lb (ix2 p q)
      = Spec.layerK X A B (Spec.rowVec ba) (Spec.rowVec bb) L i := by
  refine (pay_apply ab bab bb' bbb xb Lb p q).trans ?_
  rw [ha, hb, hba, hbb]
  unfold Spec.layerK Spec.mm Spec.rowVec
  simp only [hx, hL]

/-- What grid point t writes back to the output array is block t of the layer of the arrays the region finds. -/
theorem flushed_eq (c : Dev nD) (t : Fin cfg2.N) :
    (dat2 V c).flushed 6 t = ((cfg2.win 6).blk t).view.read (Elt Ideal)
      (Spec.layerK (V c main_v44_0) (V c main_v57) (V c main_v70) (Spec.rowVec (V c main_v3))
        (Spec.rowVec (V c main_v4)) (V c main_arg12)) := by
  show (cfg2.win 6).cut (grid2.coords t) ((dat2 V c).after 6 t) = _
  rw [after2_6]
  unfold out2_6
  rw [View.canon_unit_zero hz]
  simp only [View.ld_unit_zero (S := S2000x128) hz, View.ld_unit_zero (S := S1x128) hz,
    View.ld_unit_zero (S := S128x128) hz]
  funext j
  obtain ⟨p, q, rfl⟩ : ∃ (p : Fin 2000) (q : Fin 128), j = ix2 p q := ⟨j 0, j 1, eq_ix2 j⟩
  exact entry_eq (V c main_v44_0) (V c main_v57) (V c main_v70) (V c main_v3) (V c main_v4) (V c main_arg12)
    (iblk2 V c 0 t) (iblk2 V c 1 t) (iblk2 V c 2 t) (iblk2 V c 3 t) (iblk2 V c 4 t) (iblk2 V c 5 t)
    (((cfg2.win 6).blk t).view.emb (ix2 p q)) p q
    (fun k => congrArg (V c main_v44_0) (emb_h t p q k))
    (congrArg (V c main_v57) (emb_A t p q))
    (congrArg (V c main_v70) (emb_B t p q))
    (congrArg (V c main_v3) (emb_ba t p q))
    (congrArg (V c main_v4) (emb_bb t p q))
    (fun k => congrArg (V c main_arg12) (emb_L t p q k))

/-- An index of the output array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v71).slice (win2_6.rect t)).set ↔ _
  rw [View.set_slice_whole, Rect.mem_set_unit]
  exact Iff.rfl

/-- The 25 row blocks tile the array: the index (n, c) lies in the block of the point whose row block is n / 2000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 128 ≤ (i 1).val ∧ (i 1).val < win2_6.index t (1 : Fin 2) * 128 + 128
    omega

end R2

theorem region2_h (c : Dev nD) :
    (dat2 V c).arrAt 6 cfg2.N = Spec.layerK (V c main_v44_0) (V c main_v57) (V c main_v70) (Spec.rowVec (V c main_v3)) (Spec.rowVec (V c main_v4)) (V c main_arg12) :=
  (dat2 V c).arrAt_eq_of_cover 6 _ (fun t _ => R2.flushed_eq V c t) R2.cover

end Cert.KSide

end
-- ==== Proof.KTerms.lean ====
/-
  The host lines between the kernel program's pipelined regions, as functions of the arrays they read.

  A bias vector enters a region as one row (`biasK`). An edge type's in-degree is the number of edges whose
  destination word lands on a node, counted by adding a vector of ones into zeros, clamped below at one and laid
  out as a column (`degK`). A message array is aggregated (`aggK`) by picking, for every edge, the row of its
  source node (a negative source word is first wrapped by the node count, `wrapK`), adding the picked rows into
  zeros at the edges' destination nodes, and dividing every row by the node's clamped in-degree. All four are the
  program's own operations with the program's own dimension records, at any float instance.
-/
import proofs.«123243_j17592186044980_2_alg».proof.Proof.Gen.KernelIdeal

noncomputable section

namespace Cert.KSide

open Cert.KernelIdeal Cert.KernelIdeal.Gen Idealize.ShloMosaic

variable {F : FTy → Type} [FloatOps F]

/-- A bias vector as one row. -/
def biasK (b : (⟨S128, .f32⟩ : BufTy).Contents (Elt F)) : (⟨S1x128, .f32⟩ : BufTy).Contents (Elt F) :=
  shapeCast S1x128 b shapeCasts_S128_S1x128

/-- The source words with the negative ones wrapped by the node count, as a column. -/
def wrapK (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The in-degrees (ones added into zeros at the destination words), clamped below at one. -/
def degVecK (dst : (⟨S800000, .i32⟩ : BufTy).Contents (Elt F)) : (⟨S50000, .f32⟩ : BufTy).Contents (Elt F) :=
  maximumf (broadcastInDim S50000 ![] bcast_S_S50000 (constant S_ .f32 0x3F800000#32))
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))

/-- The clamped in-degrees as a column. -/
def degK (dst : (⟨S800000, .i32⟩ : BufTy).Contents (Elt F)) : (⟨S50000x1, .f32⟩ : BufTy).Contents (Elt F) :=
  shapeCast S50000x1 (degVecK (F := F) dst) shapeCasts_S50000_S50000x1

/-- A message array aggregated over one edge type and divided by the clamped in-degrees. -/
def aggK (src dst : (⟨S800000, .i32⟩ : BufTy).Contents (Elt F)) (M : (⟨S50000x128, .bf16⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (extf .f32 (Host.gather gather_S50000x128_S800000x1_S800000x128_1_0_n_n_0_1_1128 M (wrapK (F := F) src)) bitsLt_bf16_f32))
    (broadcastInDim S50000x128 ![0, 1] bcast_S50000x1_S50000x128_0_1 (degK (F := F) dst))

end Cert.KSide

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.FoldA.lean ====
/-
  What the kernel program's buffers hold at the entries of its first two pipelined regions, read back through the
  host lines of the program's main function, at any float instance.

  At the first region's entry only five reshapes have run: each lays one bias vector out as one row, so the three
  rows the first two regions take hold `biasK` of the launched bias vectors, and every argument of the program is as
  launched. The first region leaves its three output arrays (its arrays 5, 6 and 7) and touches nothing else.

  Between the first and the second region the host lines count, for each of the two edge types, the edges arriving
  at every node (ones added into zeros at the destination words), clamp the counts below at one and lay them out as
  a column; then, per edge type, they wrap the negative source words by the node count, pick every edge's message
  row out of one of the first region's outputs, widen the rows, add them into zeros at the destination nodes and
  divide every node's row by its clamped count. None of these lines writes a buffer written earlier, so at the
  second region's entry: the first output of the first region is what the pipeline left; the two aggregated arrays
  hold `aggK` of the launched source and destination words and of the first region's second and third outputs; the
  bias rows are as the reshapes wrote them; and the arguments are still as launched.

  Every fact is obtained by walking the one buffer back: across a stretch of lines that does not write it (its
  reference is not among the stretch's written references), across the first region (which keeps every buffer that
  is not one of its arrays, and holds its outputs at the pipeline's final arrays), and, at a line that writes it, to
  the line's function of its operands' contents, themselves walked back in the same way.
-/
import proofs.«123243_j17592186044980_2_alg».proof.Proof.Gen.KernelIdeal.Frame
import proofs.«123243_j17592186044980_2_alg».proof.Proof.KTerms
import proofs.«123243_j17592186044980_2_alg».proof.Proof.LibCat
import Idealize.ShloMosaic.Lib.StableHlo.Run

set_option maxRecDepth 16384

noncomputable section

namespace Cert.KSide

open Cert.KernelIdeal Cert.KernelIdeal.Gen Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

namespace FoldA

/-- The buffers the five reshapes before the first region write. -/
abbrev wr0 : List (Ref sig .tc) := [main_v0, main_v1, main_v2, main_v3, main_v4]
/-- The buffers the first in-degree count writes. -/
abbrev wr1 : List (Ref sig .tc) := [main_cst, main_v6, main_cst_0, main_v7, main_v8, main_v9, main_cst_1]
/-- The buffers the first clamp writes. -/
abbrev wr1_1 : List (Ref sig .tc) := [main_call0_v0, main_call0_v1, main_v10]
/-- The buffers the second in-degree count writes. -/
abbrev wr1_2 : List (Ref sig .tc) :=
  [main_v11, main_cst_2, main_v12, main_cst_3, main_v13, main_v14, main_v15, main_cst_4]
/-- The buffers the second clamp writes. -/
abbrev wr1_3 : List (Ref sig .tc) := [main_call1_v0, main_call1_v1, main_v16]
/-- The buffers the two aggregations before the second region write. -/
abbrev wr1_4 : List (Ref sig .tc) :=
  [main_v17, main_c, main_v18, main_v19, main_c_5, main_v20, main_v21, main_v22, main_v23, main_v24, main_v25,
   main_cst_6, main_v26, main_v27, main_v28, main_v29, main_v30, main_c_7, main_v31, main_v32, main_c_8, main_v33,
   main_v34, main_v35, main_v36, main_v37, main_v38, main_cst_9, main_v39, main_v40, main_v41, main_v42, main_v43]

local macro "writes_in" : tactic =>
  `(tactic| (simp only [List.Forall, StableHlo.nullary_writes, StableHlo.unary_writes, StableHlo.binary_writes,
      StableHlo.ternary_writes, StableHlo.reshape_writes, Finset.singleton_subset_iff, List.mem_toFinset]
             repeat' apply And.intro
             all_goals exact List.mem_map_of_mem (by decide)))

theorem wr0_sub : (hostOps0 : List (HloOp τ sig (Elt F))).Forall fun op => op.writes ⊆ (wr0.map (Proc.devRef (τ := τ) .tc)).toFinset := by
  writes_in
theorem wr1_sub : (hostOps1 : List (HloOp τ sig (Elt F))).Forall fun op => op.writes ⊆ (wr1.map (Proc.devRef (τ := τ) .tc)).toFinset := by
  writes_in
theorem wr1_1_sub : (hostOps1_1 : List (HloOp τ sig (Elt F))).Forall fun op => op.writes ⊆ (wr1_1.map (Proc.devRef (τ := τ) .tc)).toFinset := by
  writes_in
theorem wr1_2_sub : (hostOps1_2 : List (HloOp τ sig (Elt F))).Forall fun op => op.writes ⊆ (wr1_2.map (Proc.devRef (τ := τ) .tc)).toFinset := by
  writes_in
theorem wr1_3_sub : (hostOps1_3 : List (HloOp τ sig (Elt F))).Forall fun op => op.writes ⊆ (wr1_3.map (Proc.devRef (τ := τ) .tc)).toFinset := by
  writes_in
theorem wr1_4_sub : (hostOps1_4 : List (HloOp τ sig (Elt F))).Forall fun op => op.writes ⊆ (wr1_4.map (Proc.devRef (τ := τ) .tc)).toFinset := by
  writes_in

/-- A buffer the reshapes do not write is as launched at the first region's entry. -/
theorem W1_keep (r : Ref sig .tc) (h : r ∉ wr0) : W1 m ρ c (Proc.devRef .tc r) = m ((c : Thread nD τ).loc r) :=
  (StableHlo.after_of_writes_sub hostOps0 _ wr0_sub h).trans rfl
theorem W3_keep (r : Ref sig .tc) (h : r ∉ wr1) : W3 m ρ c (Proc.devRef .tc r) = W2 m ρ c (Proc.devRef .tc r) :=
  StableHlo.after_of_writes_sub hostOps1 _ wr1_sub h
theorem W4_keep (r : Ref sig .tc) (h : r ∉ wr1_1) : W4 m ρ c (Proc.devRef .tc r) = W3 m ρ c (Proc.devRef .tc r) :=
  StableHlo.after_of_writes_sub hostOps1_1 _ wr1_1_sub h
theorem W5_keep (r : Ref sig .tc) (h : r ∉ wr1_2) : W5 m ρ c (Proc.devRef .tc r) = W4 m ρ c (Proc.devRef .tc r) :=
  StableHlo.after_of_writes_sub hostOps1_2 _ wr1_2_sub h
theorem W6_keep (r : Ref sig .tc) (h : r ∉ wr1_3) : W6 m ρ c (Proc.devRef .tc r) = W5 m ρ c (Proc.devRef .tc r) :=
  StableHlo.after_of_writes_sub hostOps1_3 _ wr1_3_sub h
theorem W7_keep (r : Ref sig .tc) (h : r ∉ wr1_4) : W7 m ρ c (Proc.devRef .tc r) = W6 m ρ c (Proc.devRef .tc r) :=
  StableHlo.after_of_writes_sub hostOps1_4 _ wr1_4_sub h

/-- A buffer none of the host lines between the first two regions writes holds at the second region's entry what
    the first region left. -/
theorem W7_W2 (r : Ref sig .tc) (h1 : r ∉ wr1) (h2 : r ∉ wr1_1) (h3 : r ∉ wr1_2) (h4 : r ∉ wr1_3) (h5 : r ∉ wr1_4) :
    W7 m ρ c (Proc.devRef .tc r) = W2 m ρ c (Proc.devRef .tc r) :=
  (W7_keep m ρ c r h5).trans ((W6_keep m ρ c r h4).trans ((W5_keep m ρ c r h3).trans ((W4_keep m ρ c r h2).trans (W3_keep m ρ c r h1))))

/-- A buffer that is no array of the first region and that no reshape writes is as launched at the first region's exit. -/
theorem W2_launch (r : Ref sig .tc) (hb : ∀ w, Pipeline.arrRef spec0 w ≠ r) (h : r ∉ wr0) :
    W2 m ρ c (Proc.devRef .tc r) = m ((c : Thread nD τ).loc r) :=
  (W2_of_ne m ρ c r hb).trans (W1_keep m ρ c r h)

/-- A bias vector's row, written by the reshapes. -/
theorem W1_v1 : W1 m ρ c (Proc.devRef .tc main_v1) = biasK (m ((c : Thread nD τ).loc main_arg4)) := by
  show StableHlo.after hostOps0 (W0 m ρ c) (Proc.devRef .tc main_v1) = _
  after_results
  rfl
theorem W1_v2 : W1 m ρ c (Proc.devRef .tc main_v2) = biasK (m ((c : Thread nD τ).loc main_arg6)) := by
  show StableHlo.after hostOps0 (W0 m ρ c) (Proc.devRef .tc main_v2) = _
  after_results
  rfl

/-- The arrays the first region leaves for the two aggregations. -/
theorem W2_v5_1 : W2 m ρ c (Proc.devRef .tc main_v5_1) = (dat0 (V1 m ρ) c).arrAt 6 cfg0.N := W2_arr m ρ c 6
theorem W2_v5_2 : W2 m ρ c (Proc.devRef .tc main_v5_2) = (dat0 (V1 m ρ) c).arrAt 7 cfg0.N := W2_arr m ρ c 7

end FoldA

-- the buffers' contents at the two regions' entries

theorem V1_arg0 : V1 m ρ c main_arg0 = m ((c : Thread nD τ).loc main_arg0) := FoldA.W1_keep m ρ c main_arg0 (by decide)
theorem V1_arg1 : V1 m ρ c main_arg1 = m ((c : Thread nD τ).loc main_arg1) := FoldA.W1_keep m ρ c main_arg1 (by decide)
theorem V1_arg3 : V1 m ρ c main_arg3 = m ((c : Thread nD τ).loc main_arg3) := FoldA.W1_keep m ρ c main_arg3 (by decide)
theorem V1_arg5 : V1 m ρ c main_arg5 = m ((c : Thread nD τ).loc main_arg5) := FoldA.W1_keep m ρ c main_arg5 (by decide)
theorem V1_v0 : V1 m ρ c main_v0 = biasK (m ((c : Thread nD τ).loc main_arg2)) := by
  show StableHlo.after hostOps0 (W0 m ρ c) (Proc.devRef .tc main_v0) = _
  after_results
  rfl
theorem V7_v5_0 : V7 m ρ c main_v5_0 = (dat0 (V1 m ρ) c).arrAt 5 cfg0.N :=
  (FoldA.W7_W2 m ρ c main_v5_0 (by decide) (by decide) (by decide) (by decide) (by decide)).trans (W2_arr m ρ c 5)
theorem V7_v30 : V7 m ρ c main_v30 = aggK (m ((c : Thread nD τ).loc main_arg13)) (m ((c : Thread nD τ).loc main_arg14)) ((dat0 (V1 m ρ) c).arrAt 6 cfg0.N) := by
  show StableHlo.after hostOps1_4 (W6 m ρ c) (Proc.devRef .tc main_v30) = _
  after_results_simp
  rw [FoldA.W2_launch m ρ c main_arg13 (by decide) (by decide), FoldA.W2_launch m ρ c main_arg14 (by decide) (by decide),
    FoldA.W2_v5_1 m ρ c]
  rfl
theorem V7_v43 : V7 m ρ c main_v43 = aggK (m ((c : Thread nD τ).loc main_arg15)) (m ((c : Thread nD τ).loc main_arg16)) ((dat0 (V1 m ρ) c).arrAt 7 cfg0.N) := by
  show StableHlo.after hostOps1_4 (W6 m ρ c) (Proc.devRef .tc main_v43) = _
  after_results_simp
  rw [FoldA.W2_launch m ρ c main_arg15 (by decide) (by decide), FoldA.W2_launch m ρ c main_arg16 (by decide) (by decide),
    FoldA.W2_v5_2 m ρ c]
  rfl
theorem V7_v1 : V7 m ρ c main_v1 = biasK (m ((c : Thread nD τ).loc main_arg4)) :=
  (FoldA.W7_W2 m ρ c main_v1 (by decide) (by decide) (by decide) (by decide) (by decide)).trans
    ((W2_of_ne m ρ c main_v1 (by decide)).trans (FoldA.W1_v1 m ρ c))
theorem V7_v2 : V7 m ρ c main_v2 = biasK (m ((c : Thread nD τ).loc main_arg6)) :=
  (FoldA.W7_W2 m ρ c main_v2 (by decide) (by decide) (by decide) (by decide) (by decide)).trans
    ((W2_of_ne m ρ c main_v2 (by decide)).trans (FoldA.W1_v2 m ρ c))
theorem V7_arg7 : V7 m ρ c main_arg7 = m ((c : Thread nD τ).loc main_arg7) :=
  (FoldA.W7_W2 m ρ c main_arg7 (by decide) (by decide) (by decide) (by decide) (by decide)).trans
    (FoldA.W2_launch m ρ c main_arg7 (by decide) (by decide))
theorem V7_arg8 : V7 m ρ c main_arg8 = m ((c : Thread nD τ).loc main_arg8) :=
  (FoldA.W7_W2 m ρ c main_arg8 (by decide) (by decide) (by decide) (by decide) (by decide)).trans
    (FoldA.W2_launch m ρ c main_arg8 (by decide) (by decide))
theorem V7_arg10 : V7 m ρ c main_arg10 = m ((c : Thread nD τ).loc main_arg10) :=
  (FoldA.W7_W2 m ρ c main_arg10 (by decide) (by decide) (by decide) (by decide) (by decide)).trans
    (FoldA.W2_launch m ρ c main_arg10 (by decide) (by decide))

end Cert.KSide

end
-- ==== Proof.FoldB.lean ====
/-
  What the program's buffers hold where its second and third pipelined regions start, and what it returns.

  The program runs three pipelined regions with plain host lines between them. No host line and no region ever
  writes an argument's buffer, so the source and destination words of both edge types and the last weight matrix
  are, at every boundary, what was launched. The five bias rows are laid out before the first region and never
  written again. Before the second region the host lines count, for each edge type, the edges arriving at every
  node (ones added into zeros at the destination words), clamp the counts below at one and lay them out as a
  column; these two columns are not written again either, so the lines between the second and the third region
  divide by the very same columns. Those lines take the second region's two message arrays (its second and third
  outputs), pick for every edge the row of its (wrapped) source node, add the picked rows into zeros at the edges'
  destination nodes and divide by the clamped in-degree column: the aggregate of the launched words and of the
  region's message output. The second region's first output (the layer's node features) is not touched by these
  lines and reaches the third region as the region left it. The third region's single output is the result.
-/
import proofs.«123243_j17592186044980_2_alg».proof.Proof.Gen.KernelIdeal.Frame
import proofs.«123243_j17592186044980_2_alg».proof.Proof.KTerms
import proofs.«123243_j17592186044980_2_alg».proof.Proof.LibCat
import Idealize.ShloMosaic.Lib.StableHlo.Run

set_option maxRecDepth 16384

noncomputable section

namespace Cert.KSide

open Cert.KernelIdeal Cert.KernelIdeal.Gen Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

namespace FoldB

/-! ## What each stretch of host lines leaves, from any contents `V` at its start -/

/-- The constant one every clamp compares against. -/
def oneK : (⟨S_, .f32⟩ : BufTy).Contents (Elt F) := constant S_ .f32 0x3F800000#32

/-- The number of edges arriving at every node: ones added into zeros at the destination words. -/
def cntK (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The aggregate of a message array, divided by whatever column the divisor's buffer holds. -/
def aggDivK (src dst : (⟨S800000, .i32⟩ : BufTy).Contents (Elt F)) (M : (⟨S50000x128, .bf16⟩ : BufTy).Contents (Elt F))
    (col : (⟨S50000x1, .f32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (extf .f32 (Host.gather gather_S50000x128_S800000x1_S800000x128_1_0_n_n_0_1_1128 M (wrapK (F := F) src)) bitsLt_bf16_f32))
    (broadcastInDim S50000x128 ![0, 1] bcast_S50000x1_S50000x128_0_1 col)

section Stretches
variable (V : Valuation τ sig (Elt F))

/-- The lines before the first region lay the fourth bias vector out as a row. -/
theorem ops0_v3 : after hostOps0 V (Proc.devRef .tc main_v3) = biasK (V (Proc.devRef .tc main_arg9)) := by
  after_results_simp; rfl
/-- … and the fifth. -/
theorem ops0_v4 : after hostOps0 V (Proc.devRef .tc main_v4) = biasK (V (Proc.devRef .tc main_arg11)) := by
  after_results_simp; rfl

/-- The first edge type's arrivals are counted from its destination words. -/
theorem ops1_v9 : after hostOps1 V (Proc.devRef .tc main_v9) = cntK (V (Proc.devRef .tc main_arg14)) := by
  after_results_simp; rfl
/-- The clamp's constant. -/
theorem ops1_cst1 : after hostOps1 V (Proc.devRef .tc main_cst_1) = oneK := by
  after_results_simp; rfl
/-- The called clamp: the larger of the broadcast constant and the counts. -/
theorem clip0_v10 : after hostOps1_1 V (Proc.devRef .tc main_v10)
    = maximumf (broadcastInDim S50000 ![] bcast_S_S50000 (V (Proc.devRef .tc main_cst_1))) (V (Proc.devRef .tc main_v9)) := by
  after_results_simp
  simp only [Cert.Lib.ofBuf_toBuf]
  rfl
/-- The clamped counts laid out as a column. -/
theorem ops12_v11 : after hostOps1_2 V (Proc.devRef .tc main_v11)
    = shapeCast S50000x1 (V (Proc.devRef .tc main_v10)) shapeCasts_S50000_S50000x1 := by
  after_results_simp; rfl
/-- The second edge type's arrivals are counted from its destination words. -/
theorem ops12_v15 : after hostOps1_2 V (Proc.devRef .tc main_v15) = cntK (V (Proc.devRef .tc main_arg16)) := by
  after_results_simp; rfl
/-- The second clamp's constant. -/
theorem ops12_cst4 : after hostOps1_2 V (Proc.devRef .tc main_cst_4) = oneK := by
  after_results_simp; rfl
/-- The second called clamp. -/
theorem clip1_v16 : after hostOps1_3 V (Proc.devRef .tc main_v16)
    = maximumf (broadcastInDim S50000 ![] bcast_S_S50000 (V (Proc.devRef .tc main_cst_4))) (V (Proc.devRef .tc main_v15)) := by
  after_results_simp
  simp only [Cert.Lib.ofBuf_toBuf]
  rfl
/-- The second clamped counts laid out as a column. -/
theorem ops14_v17 : after hostOps1_4 V (Proc.devRef .tc main_v17)
    = shapeCast S50000x1 (V (Proc.devRef .tc main_v16)) shapeCasts_S50000_S50000x1 := by
  after_results_simp; rfl
/-- Between the second and the third region: the first edge type's aggregate of the buffers' contents. -/
theorem ops2_v57 : after hostOps2 V (Proc.devRef .tc main_v57)
    = aggDivK (V (Proc.devRef .tc main_arg13)) (V (Proc.devRef .tc main_arg14)) (V (Proc.devRef .tc main_v44_1)) (V (Proc.devRef .tc main_v11)) := by
  after_results_simp; rfl
/-- … and the second edge type's. -/
theorem ops2_v70 : after hostOps2 V (Proc.devRef .tc main_v70)
    = aggDivK (V (Proc.devRef .tc main_arg15)) (V (Proc.devRef .tc main_arg16)) (V (Proc.devRef .tc main_v44_2)) (V (Proc.devRef .tc main_v17)) := by
  after_results_simp; rfl

end Stretches

/-! ## Buffers nothing writes between two boundaries -/

/-- The first edge type's destination words, from the first region's exit back to the launch. -/
theorem W2_arg14_keep : W2 m ρ c (Proc.devRef .tc main_arg14) = W0 m ρ c (Proc.devRef .tc main_arg14) :=
  calc W2 m ρ c (Proc.devRef .tc main_arg14)
    _ = W1 m ρ c (Proc.devRef .tc main_arg14) := W2_of_ne m ρ c main_arg14 (by decide)
    _ = W0 m ρ c (Proc.devRef .tc main_arg14) := StableHlo.after_of_forall_not_mem _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- The second edge type's destination words, from the first clamp's return back to the launch. -/
theorem W4_arg16_keep : W4 m ρ c (Proc.devRef .tc main_arg16) = W0 m ρ c (Proc.devRef .tc main_arg16) :=
  calc W4 m ρ c (Proc.devRef .tc main_arg16)
    _ = W3 m ρ c (Proc.devRef .tc main_arg16) := StableHlo.after_of_forall_not_mem _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg16) := StableHlo.after_of_forall_not_mem _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- The first edge type's source words, from the second region's exit back to the launch. -/
theorem W8_arg13_keep : W8 m ρ c (Proc.devRef .tc main_arg13) = W0 m ρ c (Proc.devRef .tc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem _ _ (List.forall_iff_forall_mem.mp (by
          simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_arg13) := StableHlo.after_of_forall_not_mem _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg13) := StableHlo.after_of_forall_not_mem _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg13) := StableHlo.after_of_forall_not_mem _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg13) := StableHlo.after_of_forall_not_mem _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- The first edge type's destination words, from the second region's exit back to the launch. -/
theorem W8_arg14_keep : W8 m ρ c (Proc.devRef .tc main_arg14) = W0 m ρ c (Proc.devRef .tc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_forall_not_mem _ _ (List.forall_iff_forall_mem.mp (by
          simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_arg14) := StableHlo.after_of_forall_not_mem _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg14) := StableHlo.after_of_forall_not_mem _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg14) := StableHlo.after_of_forall_not_mem _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg14) := StableHlo.after_of_forall_not_mem _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- The second edge type's source words, from the second region's exit back to the launch. -/
theorem W8_arg15_keep : W8 m ρ c (Proc.devRef .tc main_arg15) = W0 m ρ c (Proc.devRef .tc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_forall_not_mem _ _ (List.forall_iff_forall_mem.mp (by
          simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_arg15) := StableHlo.after_of_forall_not_mem _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg15) := StableHlo.after_of_forall_not_mem _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg15) := StableHlo.after_of_forall_not_mem _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg15) := StableHlo.after_of_forall_not_mem _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- The second edge type's destination words, from the second region's exit back to the launch. -/
theorem W8_arg16_keep : W8 m ρ c (Proc.devRef .tc main_arg16) = W0 m ρ c (Proc.devRef .tc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_forall_not_mem _ _ (List.forall_iff_forall_mem.mp (by
          simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_arg16) := StableHlo.after_of_forall_not_mem _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg16) := StableHlo.after_of_forall_not_mem _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg16) := StableHlo.after_of_forall_not_mem _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg16) := StableHlo.after_of_forall_not_mem _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- The last weight matrix, from the third region's entry back to the launch. -/
theorem W9_arg12_keep : W9 m ρ c (Proc.devRef .tc main_arg12) = W0 m ρ c (Proc.devRef .tc main_arg12) :=
  calc W9 m ρ c (Proc.devRef .tc main_arg12)
    _ = W8 m ρ c (Proc.devRef .tc main_arg12) := StableHlo.after_of_forall_not_mem _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem _ _ (List.forall_iff_forall_mem.mp (by
          simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_arg12) := StableHlo.after_of_forall_not_mem _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg12) := StableHlo.after_of_forall_not_mem _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg12) := StableHlo.after_of_forall_not_mem _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg12) := StableHlo.after_of_forall_not_mem _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- The fourth bias row, from the third region's entry back to the lines that lay it out. -/
theorem W9_v3_keep : W9 m ρ c (Proc.devRef .tc main_v3) = W1 m ρ c (Proc.devRef .tc main_v3) :=
  calc W9 m ρ c (Proc.devRef .tc main_v3)
    _ = W8 m ρ c (Proc.devRef .tc main_v3) := StableHlo.after_of_forall_not_mem _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem _ _ (List.forall_iff_forall_mem.mp (by
          simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_v3) := StableHlo.after_of_forall_not_mem _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_v3) := StableHlo.after_of_forall_not_mem _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_v3) := StableHlo.after_of_forall_not_mem _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_v3) := StableHlo.after_of_forall_not_mem _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_v3) := W2_of_ne m ρ c main_v3 (by decide)

/-- The fifth bias row, from the third region's entry back to the lines that lay it out. -/
theorem W9_v4_keep : W9 m ρ c (Proc.devRef .tc main_v4) = W1 m ρ c (Proc.devRef .tc main_v4) :=
  calc W9 m ρ c (Proc.devRef .tc main_v4)
    _ = W8 m ρ c (Proc.devRef .tc main_v4) := StableHlo.after_of_forall_not_mem _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W7 m ρ c (Proc.devRef .tc main_v4) := W8_of_ne m ρ c main_v4 (by decide)
    _ = W6 m ρ c (Proc.devRef .tc main_v4) := StableHlo.after_of_forall_not_mem _ _ (List.forall_iff_forall_mem.mp (by
          simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_v4) := StableHlo.after_of_forall_not_mem _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_v4) := StableHlo.after_of_forall_not_mem _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_v4) := StableHlo.after_of_forall_not_mem _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_v4) := StableHlo.after_of_forall_not_mem _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_v4) := W2_of_ne m ρ c main_v4 (by decide)

/-- The first in-degree column, from the second region's exit back to the lines that lay it out. -/
theorem W8_v11_keep : W8 m ρ c (Proc.devRef .tc main_v11) = W5 m ρ c (Proc.devRef .tc main_v11) :=
  calc W8 m ρ c (Proc.devRef .tc main_v11)
    _ = W7 m ρ c (Proc.devRef .tc main_v11) := W8_of_ne m ρ c main_v11 (by decide)
    _ = W6 m ρ c (Proc.devRef .tc main_v11) := StableHlo.after_of_forall_not_mem _ _ (List.forall_iff_forall_mem.mp (by
          simp only [hostOps1_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_v11) := StableHlo.after_of_forall_not_mem _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

/-- The second in-degree column, from the second region's exit back to the line that lays it out. -/
theorem W8_v17_keep : W8 m ρ c (Proc.devRef .tc main_v17) = W7 m ρ c (Proc.devRef .tc main_v17) :=
  calc W8 m ρ c (Proc.devRef .tc main_v17)
    _ = W7 m ρ c (Proc.devRef .tc main_v17) := W8_of_ne m ρ c main_v17 (by decide)

/-! ## The launched words at the boundaries that read them -/

theorem W2_arg14 : W2 m ρ c (Proc.devRef .tc main_arg14) = m ((c : Thread nD τ).loc main_arg14) :=
  (W2_arg14_keep m ρ c).trans rfl
theorem W4_arg16 : W4 m ρ c (Proc.devRef .tc main_arg16) = m ((c : Thread nD τ).loc main_arg16) :=
  (W4_arg16_keep m ρ c).trans rfl
theorem W8_arg13 : W8 m ρ c (Proc.devRef .tc main_arg13) = m ((c : Thread nD τ).loc main_arg13) :=
  (W8_arg13_keep m ρ c).trans rfl
theorem W8_arg14 : W8 m ρ c (Proc.devRef .tc main_arg14) = m ((c : Thread nD τ).loc main_arg14) :=
  (W8_arg14_keep m ρ c).trans rfl
theorem W8_arg15 : W8 m ρ c (Proc.devRef .tc main_arg15) = m ((c : Thread nD τ).loc main_arg15) :=
  (W8_arg15_keep m ρ c).trans rfl
theorem W8_arg16 : W8 m ρ c (Proc.devRef .tc main_arg16) = m ((c : Thread nD τ).loc main_arg16) :=
  (W8_arg16_keep m ρ c).trans rfl

/-! ## The two clamped in-degree columns -/

/-- The clamped in-degree vector is the clamp of the counted arrivals. -/
theorem degVecK_eq (dst : (⟨S800000, .i32⟩ : BufTy).Contents (Elt F)) :
    degVecK (F := F) dst = maximumf (broadcastInDim S50000 ![] bcast_S_S50000 (oneK (F := F))) (cntK (F := F) dst) := rfl

theorem W3_v9 : W3 m ρ c (Proc.devRef .tc main_v9) = cntK (m ((c : Thread nD τ).loc main_arg14)) :=
  (ops1_v9 (W2 m ρ c)).trans (by rw [W2_arg14 m ρ c])
theorem W3_cst1 : W3 m ρ c (Proc.devRef .tc main_cst_1) = oneK := ops1_cst1 (W2 m ρ c)
theorem W4_v10 : W4 m ρ c (Proc.devRef .tc main_v10) = degVecK (m ((c : Thread nD τ).loc main_arg14)) :=
  (clip0_v10 (W3 m ρ c)).trans (by rw [W3_v9 m ρ c, W3_cst1 m ρ c, degVecK_eq])
theorem W5_v11 : W5 m ρ c (Proc.devRef .tc main_v11) = degK (m ((c : Thread nD τ).loc main_arg14)) :=
  (ops12_v11 (W4 m ρ c)).trans (by rw [W4_v10 m ρ c]; rfl)
/-- The first column at the second region's exit. -/
theorem W8_v11 : W8 m ρ c (Proc.devRef .tc main_v11) = degK (m ((c : Thread nD τ).loc main_arg14)) :=
  (W8_v11_keep m ρ c).trans (W5_v11 m ρ c)

theorem W5_v15 : W5 m ρ c (Proc.devRef .tc main_v15) = cntK (m ((c : Thread nD τ).loc main_arg16)) :=
  (ops12_v15 (W4 m ρ c)).trans (by rw [W4_arg16 m ρ c])
theorem W5_cst4 : W5 m ρ c (Proc.devRef .tc main_cst_4) = oneK := ops12_cst4 (W4 m ρ c)
theorem W6_v16 : W6 m ρ c (Proc.devRef .tc main_v16) = degVecK (m ((c : Thread nD τ).loc main_arg16)) :=
  (clip1_v16 (W5 m ρ c)).trans (by rw [W5_v15 m ρ c, W5_cst4 m ρ c, degVecK_eq])
theorem W7_v17 : W7 m ρ c (Proc.devRef .tc main_v17) = degK (m ((c : Thread nD τ).loc main_arg16)) :=
  (ops14_v17 (W6 m ρ c)).trans (by rw [W6_v16 m ρ c]; rfl)
/-- The second column at the second region's exit. -/
theorem W8_v17 : W8 m ρ c (Proc.devRef .tc main_v17) = degK (m ((c : Thread nD τ).loc main_arg16)) :=
  (W8_v17_keep m ρ c).trans (W7_v17 m ρ c)

/-- Dividing by the clamped in-degree column is the aggregate. -/
theorem aggDivK_degK (src dst : (⟨S800000, .i32⟩ : BufTy).Contents (Elt F)) (M : (⟨S50000x128, .bf16⟩ : BufTy).Contents (Elt F)) :
    aggDivK (F := F) src dst M (degK (F := F) dst) = aggK (F := F) src dst M := rfl

end FoldB

/-! ## The third region's entry contents, and the result -/

/-- The second region's first output reaches the third region as the region left it. -/
theorem V9_v44_0 : V9 m ρ c main_v44_0 = (dat1 (V7 m ρ) c).arrAt 8 cfg1.N :=
  (StableHlo.after_of_forall_not_mem _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide))) : W9 m ρ c (Proc.devRef .tc main_v44_0) = W8 m ρ c (Proc.devRef .tc main_v44_0)).trans (W8_arr m ρ c 8)
/-- The first edge type's aggregate of the second region's first message array. -/
theorem V9_v57 : V9 m ρ c main_v57 = aggK (m ((c : Thread nD τ).loc main_arg13)) (m ((c : Thread nD τ).loc main_arg14)) ((dat1 (V7 m ρ) c).arrAt 9 cfg1.N) :=
  (FoldB.ops2_v57 (W8 m ρ c)).trans (by
    rw [FoldB.W8_arg13 m ρ c, FoldB.W8_arg14 m ρ c, FoldB.W8_v11 m ρ c, W8_arr m ρ c 9, FoldB.aggDivK_degK])
/-- The second edge type's aggregate of the second region's second message array. -/
theorem V9_v70 : V9 m ρ c main_v70 = aggK (m ((c : Thread nD τ).loc main_arg15)) (m ((c : Thread nD τ).loc main_arg16)) ((dat1 (V7 m ρ) c).arrAt 10 cfg1.N) :=
  (FoldB.ops2_v70 (W8 m ρ c)).trans (by
    rw [FoldB.W8_arg15 m ρ c, FoldB.W8_arg16 m ρ c, FoldB.W8_v17 m ρ c, W8_arr m ρ c 10, FoldB.aggDivK_degK])
/-- The fourth bias row. -/
theorem V9_v3 : V9 m ρ c main_v3 = biasK (m ((c : Thread nD τ).loc main_arg9)) :=
  (FoldB.W9_v3_keep m ρ c).trans (FoldB.ops0_v3 (W0 m ρ c))
/-- The fifth bias row. -/
theorem V9_v4 : V9 m ρ c main_v4 = biasK (m ((c : Thread nD τ).loc main_arg11)) :=
  (FoldB.W9_v4_keep m ρ c).trans (FoldB.ops0_v4 (W0 m ρ c))
/-- The last weight matrix as launched. -/
theorem V9_arg12 : V9 m ρ c main_arg12 = m ((c : Thread nD τ).loc main_arg12) :=
  (FoldB.W9_arg12_keep m ρ c).trans rfl
/-- The third region's single output is the result buffer. -/
theorem W10_v71 : W10 m ρ c (Proc.devRef .tc main_v71) = (dat2 (V9 m ρ) c).arrAt 6 cfg2.N := W10_arr m ρ c 6

end Cert.KSide

end
-- ==== Proof.RTerms.lean ====
/-
  The reference program's aggregation of a message array over one edge type, as a function of the array: the
  rows of the edges' (wrapped) source nodes are picked, added into zeros at the edges' destination nodes, and every
  row divided by the node's in-degree clamped below at one. The index columns, the zeros and the degree array are
  the program's own first-layer stages; the second layer's are the same functions of the same edge words.
-/
import proofs.«123243_j17592186044980_2_alg».proof.Proof.Gen.ReferenceIdeal.Read

noncomputable section

namespace Cert.RSide

open Cert.ReferenceIdeal Cert.ReferenceIdeal.Gen Cert.ReferenceIdeal.Read Idealize.ShloMosaic

variable {F : FTy → Type} [FloatOps F]

/-- Aggregation over the first edge type (source words `x13`, destination words `x14`). -/
def aggRa (x13 x14 : (⟨S800000, .i32⟩ : BufTy).Contents (Elt F)) (M : (⟨S50000x128, .f32⟩ : BufTy).Contents (Elt F)) :
    (⟨S50000x128, .f32⟩ : BufTy).Contents (Elt F) :=
  Host.divf
    (Host.scatterAdd scatter_S50000x128_S800000x1_S800000x128_1_0_0_1 (val_main_v12 (F := F)) (val_main_v13 (F := F) x14)
      (Host.gather gather_S50000x128_S800000x1_S800000x128_1_0_n_n_0_1_1128 M (val_main_v10 (F := F) x13)))
    (val_main_v21 (F := F) x14)

/-- Aggregation over the second edge type (source words `x15`, destination words `x16`). -/
def aggRb (x15 x16 : (⟨S800000, .i32⟩ : BufTy).Contents (Elt F)) (M : (⟨S50000x128, .f32⟩ : BufTy).Contents (Elt F)) :
    (⟨S50000x128, .f32⟩ : BufTy).Contents (Elt F) :=
  Host.divf
    (Host.scatterAdd scatter_S50000x128_S800000x1_S800000x128_1_0_0_1 (val_main_v34 (F := F)) (val_main_v35 (F := F) x16)
      (Host.gather gather_S50000x128_S800000x1_S800000x128_1_0_n_n_0_1_1128 M (val_main_v32 (F := F) x15)))
    (val_main_v43 (F := F) x16)

end Cert.RSide

end
-- ==== Proof.Bridge.lean ====
/-
  The two programs' aggregation maps are one function on the extended reals.

  Both pick the rows of the edges' wrapped source nodes out of the message array, add them into zeros at the edges'
  destination nodes and divide every row by the node's clamped in-degree, with the same operations and the same
  dimension numbers. They differ in two spellings, neither of which changes a value: one program stores the message
  array in a narrower float format and widens the picked rows again, and a change of format is the identity on the
  extended reals; and the degree vector becomes a column by a reshape in one program and by a broadcast along the new
  unit axis in the other — both columns hold the vector's entry n in row n. A bias vector reshaped to one row and
  read back along that row is the vector.
-/
import proofs.«123243_j17592186044980_2_alg».proof.Proof.Spec
import proofs.«123243_j17592186044980_2_alg».proof.Proof.KTerms
import proofs.«123243_j17592186044980_2_alg».proof.Proof.RTerms
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

/-- A vector laid out as a column by a reshape, or by a broadcast along the new unit axis: row n holds entry n. -/
theorem column_eq {α : Type} (d : (⟨1, ![50000]⟩ : Shape).Idx → α)
    (h : (⟨1, ![50000]⟩ : Shape).ShapeCasts ⟨2, ![50000, 1]⟩)
    (hb : (⟨1, ![50000]⟩ : Shape).BroadcastsInDim ⟨2, ![50000, 1]⟩ ![0]) :
    shapeCast (⟨2, ![50000, 1]⟩ : Shape) d h = broadcastInDim (⟨2, ![50000, 1]⟩ : Shape) ![0] hb d := by
  funext j
  have e1 : shapeCast (⟨2, ![50000, 1]⟩ : Shape) d h j = d (ix1 (j 0)) :=
    shapeCast_apply d h j (ix1 (j 0)) (by
      rw [Shape.rowMajor_val_two, Shape.rowMajor_val_one]
      have h1 : (j 1).val = 0 := by have := (j 1).isLt; simp at this; omega
      show (j 0).val = (j 0).val * 1 + (j 1).val
      rw [h1, Nat.mul_one, Nat.add_zero])
  have e2 : broadcastInDim (⟨2, ![50000, 1]⟩ : Shape) ![0] hb d j = d (ix1 (j 0)) :=
    broadcastInDim_apply ![0] hb d j (ix1 (j 0)) (fun a => match a with
      | ⟨0, _⟩ => by show (j 0).val = if (50000 : Nat) = 1 then 0 else (j 0).val; rw [if_neg (by decide)])
  rw [e1, e2]

/-- Widening a narrower float format is the identity on the extended reals. -/
theorem widen_id {s : Shape} (X : FVec Ideal s .bf16) (h : FTy.bf16.bits < FTy.f32.bits) :
    (extf .f32 X h : FVec Ideal s .f32) = X := rfl

/-- A bias vector reshaped to one row, read back along the row. -/
theorem rowVec_biasK (b : Spec.SD.Idx → EReal) : Spec.rowVec (KSide.biasK (F := Ideal) b) = b := by
  funext i
  unfold Spec.rowVec KSide.biasK
  rw [eq_ix1 i]
  exact shapeCast_a_1a_apply b _ (0 : Fin 1) (i 0)

section Core

variable {F : FTy → Type} [FloatOps F]

open Cert.KernelIdeal Cert.KernelIdeal.Gen in
/-- The kernel program's aggregation with the widening left out and the degree column spelled as a broadcast. -/
def aggCore (src dst : (⟨S800000, .i32⟩ : BufTy).Contents (Elt F)) (M : (⟨S50000x128, .f32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 M (KSide.wrapK (F := F) src)))
    (broadcastInDim S50000x128 ![0, 1] bcast_S50000x1_S50000x128_0_1
      (broadcastInDim S50000x1 ![0] Cert.ReferenceIdeal.Gen.bcast_S50000_S50000x1_0 (KSide.degVecK (F := F) dst)))

/-- At any float instance that spelling is, operation for operation, the reference's aggregation over the first edge type. -/
theorem aggCore_eq_aggRa (src dst : (⟨Cert.KernelIdeal.S800000, .i32⟩ : BufTy).Contents (Elt F))
    (M : (⟨Cert.KernelIdeal.S50000x128, .f32⟩ : BufTy).Contents (Elt F)) :
    aggCore (F := F) src dst M = RSide.aggRa (F := F) src dst M := rfl

/-- … and over the second edge type. -/
theorem aggCore_eq_aggRb (src dst : (⟨Cert.KernelIdeal.S800000, .i32⟩ : BufTy).Contents (Elt F))
    (M : (⟨Cert.KernelIdeal.S50000x128, .f32⟩ : BufTy).Contents (Elt F)) :
    aggCore (F := F) src dst M = RSide.aggRb (F := F) src dst M := rfl

end Core

/-- On the extended reals the kernel program's aggregation is that spelling. -/
theorem aggK_eq_aggCore (src dst : (⟨Cert.KernelIdeal.S800000, .i32⟩ : BufTy).Contents (Elt Ideal)) (M : Spec.SND.Idx → EReal) :
    KSide.aggK (F := Ideal) src dst M = aggCore (F := Ideal) src dst M := by
  unfold KSide.aggK KSide.degK aggCore
  rw [widen_id, column_eq _ _ Cert.ReferenceIdeal.Gen.bcast_S50000_S50000x1_0]

/-- The two programs' aggregations over the first edge type are one function. -/
theorem aggK_eq_aggRa (src dst : (⟨Cert.KernelIdeal.S800000, .i32⟩ : BufTy).Contents (Elt Ideal)) (M : Spec.SND.Idx → EReal) :
    KSide.aggK (F := Ideal) src dst M = RSide.aggRa (F := Ideal) src dst M :=
  (aggK_eq_aggCore src dst M).trans (aggCore_eq_aggRa src dst M)

/-- The two programs' aggregations over the second edge type are one function. -/
theorem aggK_eq_aggRb (src dst : (⟨Cert.KernelIdeal.S800000, .i32⟩ : BufTy).Contents (Elt Ideal)) (M : Spec.SND.Idx → EReal) :
    KSide.aggK (F := Ideal) src dst M = RSide.aggRb (F := Ideal) src dst M :=
  (aggK_eq_aggCore src dst M).trans (aggCore_eq_aggRb src dst M)

end Cert.Bridge

end
-- ==== Proof.KValue.lean ====
/-
  The idealized kernel program's result array as the network of its arguments.

  Reading the program from the launch: the first pipelined region leaves the projected features h0 = x·Wp + bp and
  the two message arrays h0·W1a, h0·W1b; the host lines aggregate each message array over its edge type; the second
  region leaves the hidden features h1 — the layer of h0, the two aggregates, the first layer's biases and self-loop
  matrix — and the two message arrays h1·W2a, h1·W2b; the host lines aggregate those; the third region leaves the
  layer of h1, the two aggregates and the second layer's biases and self-loop matrix, which is the result. Every
  array a region or a host line reads is named by what wrote it, back to the launch contents of the arguments (a
  bias vector reaches its region as one row, read back along the row), and the regions' sums, grouped one summand
  after the other, are regrouped by edge type. The aggregation maps stay the program's own.
-/
import proofs.«123243_j17592186044980_2_alg».proof.Proof.Region0
import proofs.«123243_j17592186044980_2_alg».proof.Proof.Region1
import proofs.«123243_j17592186044980_2_alg».proof.Proof.Region2
import proofs.«123243_j17592186044980_2_alg».proof.Proof.FoldA
import proofs.«123243_j17592186044980_2_alg».proof.Proof.FoldB
import proofs.«123243_j17592186044980_2_alg».proof.Proof.Bridge

set_option maxRecDepth 16384

noncomputable section

namespace Cert.KSide

open Cert.KernelIdeal Cert.KernelIdeal.Gen Idealize.ShloMosaic Idealize.ShloMosaic.TcCoe Idealize.SL.Sem

/-- Equal arguments give equal projections, products and layers (congruences over variables). -/
theorem proj_congr {x x' : Spec.SND.Idx → EReal} {W W' : Spec.SDD.Idx → EReal} {b b' : Spec.SD.Idx → EReal}
    (e0 : x = x') (e1 : W = W') (e2 : b = b') : Spec.proj x W b = Spec.proj x' W' b' := by rw [e0, e1, e2]
theorem mm_congr {h h' : Spec.SND.Idx → EReal} {W W' : Spec.SDD.Idx → EReal}
    (e0 : h = h') (e1 : W = W') : Spec.mm h W = Spec.mm h' W' := by rw [e0, e1]
theorem layerK_congr {h h' A A' B B' : Spec.SND.Idx → EReal} {ba ba' bb bb' : Spec.SD.Idx → EReal} {L L' : Spec.SDD.Idx → EReal}
    (e0 : h = h') (e1 : A = A') (e2 : B = B') (e3 : ba = ba') (e4 : bb = bb') (e5 : L = L') :
    Spec.layerK h A B ba bb L = Spec.layer h' A' B' ba' bb' L' := by
  rw [e0, e1, e2, e3, e4, e5, Spec.layerK_eq_layer]
/-- A bias vector that a host line reshaped to one row, read back along the row. -/
theorem row_of {r : Spec.S1D.Idx → EReal} {b : Spec.SD.Idx → EReal} (e : r = biasK (F := Ideal) b) : Spec.rowVec r = b := by
  rw [e, Cert.Bridge.rowVec_biasK]

set_option maxHeartbeats 2000000 in
/-- The result array of the idealized kernel program, as the network of the launch contents of its arguments. -/
theorem kernel_value (m : (ℓ : Loc nD τ sig) → Buf (Elt Ideal) ℓ) (ρ : Dev nD → PrngReg) (c : Dev nD) :
    W10 (F := Ideal) m ρ c (Proc.devRef .tc main_v71)
      = Spec.net (aggK (F := Ideal) (m ((c : Thread nD τ).loc main_arg13)) (m ((c : Thread nD τ).loc main_arg14))) (aggK (F := Ideal) (m ((c : Thread nD τ).loc main_arg15)) (m ((c : Thread nD τ).loc main_arg16)))
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  -- region 0: the projected features and the first layer's two message arrays
  have H0 : (dat0 (V1 m ρ) c).arrAt 5 cfg0.N = Spec.proj (m ((c : Thread nD τ).loc main_arg0)) (m ((c : Thread nD τ).loc main_arg1)) (m ((c : Thread nD τ).loc main_arg2)) :=
    (region0_h (V1 m ρ) c).trans (proj_congr (V1_arg0 m ρ c) (V1_arg1 m ρ c) (row_of (V1_v0 m ρ c)))
  have Ma0 : (dat0 (V1 m ρ) c).arrAt 6 cfg0.N = Spec.mm (Spec.proj (m ((c : Thread nD τ).loc main_arg0)) (m ((c : Thread nD τ).loc main_arg1)) (m ((c : Thread nD τ).loc main_arg2))) (m ((c : Thread nD τ).loc main_arg3)) :=
    (region0_ma (V1 m ρ) c).trans (mm_congr (proj_congr (V1_arg0 m ρ c) (V1_arg1 m ρ c) (row_of (V1_v0 m ρ c))) (V1_arg3 m ρ c))
  have Mb0 : (dat0 (V1 m ρ) c).arrAt 7 cfg0.N = Spec.mm (Spec.proj (m ((c : Thread nD τ).loc main_arg0)) (m ((c : Thread nD τ).loc main_arg1)) (m ((c : Thread nD τ).loc main_arg2))) (m ((c : Thread nD τ).loc main_arg5)) :=
    (region0_mb (V1 m ρ) c).trans (mm_congr (proj_congr (V1_arg0 m ρ c) (V1_arg1 m ρ c) (row_of (V1_v0 m ρ c))) (V1_arg5 m ρ c))
  -- region 1: the hidden features and the second layer's two message arrays
  have e1 := layerK_congr ((V7_v5_0 m ρ c).trans H0)
      ((V7_v30 m ρ c).trans (congrArg (aggK (F := Ideal) (m ((c : Thread nD τ).loc main_arg13)) (m ((c : Thread nD τ).loc main_arg14))) Ma0))
      ((V7_v43 m ρ c).trans (congrArg (aggK (F := Ideal) (m ((c : Thread nD τ).loc main_arg15)) (m ((c : Thread nD τ).loc main_arg16))) Mb0))
      (row_of (V7_v1 m ρ c)) (row_of (V7_v2 m ρ c)) (V7_arg7 m ρ c)
  have H1 := (region1_h (V7 m ρ) c).trans e1
  have Ma1 := (region1_ma (V7 m ρ) c).trans (mm_congr e1 (V7_arg8 m ρ c))
  have Mb1 := (region1_mb (V7 m ρ) c).trans (mm_congr e1 (V7_arg10 m ρ c))
  -- region 2: the result
  have e2 := layerK_congr ((V9_v44_0 m ρ c).trans H1)
      ((V9_v57 m ρ c).trans (congrArg (aggK (F := Ideal) (m ((c : Thread nD τ).loc main_arg13)) (m ((c : Thread nD τ).loc main_arg14))) Ma1))
      ((V9_v70 m ρ c).trans (congrArg (aggK (F := Ideal) (m ((c : Thread nD τ).loc main_arg15)) (m ((c : Thread nD τ).loc main_arg16))) Mb1))
      (row_of (V9_v3 m ρ c)) (row_of (V9_v4 m ρ c)) (V9_arg12 m ρ c)
  exact (W10_v71 m ρ c).trans ((region2_h (V9 m ρ) c).trans e2)

end Cert.KSide

end
-- ==== Proof.RefValue.lean ====
/-
  The reference program's result is the specification's network.

  The reference program computes, stage by stage, a projection h = x · Wp + bp followed by two layers; each layer
  forms, for each of the two edge types, the message array h · W, aggregates it over the edges of that type
  (rows of the source nodes picked, summed into the destination nodes, divided by the clamped in-degree), adds the
  type's bias, adds the two types' results and the self-loop product h · L, and clamps at zero.

  Three observations identify the last stage with `Spec.net` applied to the two aggregation maps.
  (1) Over any number type, the aggregation stages of both layers are the same aggregation map applied to the
      layer's message array: the second layer rebuilds its index columns, its zero array and its degree array from the
      same edge words by the same operations as the first layer, so the stages coincide by unfolding.
  (2) Over the extended reals, a `dot_general` stage with the plain 50000×128 by 128×128 dimension numbers is the
      matrix product `Spec.mm` of its operands; a bias broadcast through a 1×128 row to 50000×128 reads the bias at
      the column coordinate; the broadcast zero constant reads the zero word everywhere.
  (3) A layer's remaining stages are pointwise sums and a pointwise maximum grouped exactly as `Spec.layer` groups
      them, so each layer's output stage is `Spec.layer` of its input, the two aggregates, the biases and the
      self-loop matrix. Composing the projection and the two layers gives `Spec.net`.
-/
import proofs.«123243_j17592186044980_2_alg».proof.Proof.Gen.ReferenceIdeal.Read
import proofs.«123243_j17592186044980_2_alg».proof.Proof.Spec
import proofs.«123243_j17592186044980_2_alg».proof.Proof.RTerms
import proofs.«123243_j17592186044980_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.RSide

open Cert.ReferenceIdeal Cert.ReferenceIdeal.Gen Cert.ReferenceIdeal.Read Idealize.ShloMosaic Idealize.ShloMosaic.ValueIdx

namespace RefV

section Generic

variable {F : FTy → Type} [FloatOps F]

/-! ### (1) The aggregation stages, over any number type -/

/-- First layer, first edge type: the divided scatter of the gathered messages is the aggregation map at the message array. -/
theorem v22_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x13 x14 : (⟨S800000, .i32⟩ : BufTy).Contents (Elt F)) :
    val_main_v22 (F := F) x0 x1 x2 x3 x13 x14 = aggRa (F := F) x13 x14 (val_main_v4 (F := F) x0 x1 x2 x3) := by
  unfold val_main_v22 val_main_v14 val_main_v11 aggRa
  rfl

/-- First layer, second edge type. -/
theorem v44_eq (x0 : (⟨S50000x128, .f32⟩ : BufTy).Contents (Elt F)) (x1 : (⟨S128x128, .f32⟩ : BufTy).Contents (Elt F)) (x2 : (⟨S128, .f32⟩ : BufTy).Contents (Elt F)) (x5 : (⟨S128x128, .f32⟩ : BufTy).Contents (Elt F)) (x15 x16 : (⟨S800000, .i32⟩ : BufTy).Contents (Elt F)) :
    val_main_v44 (F := F) x0 x1 x2 x5 x15 x16 = aggRb (F := F) x15 x16 (val_main_v26 (F := F) x0 x1 x2 x5) := by
  unfold val_main_v44 val_main_v36 val_main_v33 aggRb
  rfl

/-- The second layer's wrapped source column of the first edge type is the first layer's. -/
theorem v58_eq (x13 : (⟨S800000, .i32⟩ : BufTy).Contents (Elt F)) : val_main_v58 (F := F) x13 = val_main_v10 (F := F) x13 := by
  unfold val_main_v58 val_main_v57 val_main_v56 val_main_v55 val_main_c_11 val_main_v54 val_main_v53 val_main_c_10
  unfold val_main_v10 val_main_v9 val_main_v8 val_main_v7 val_main_c_0 val_main_v6 val_main_v5 val_main_c
  rfl

/-- The second layer's zero array of the first edge type is the first layer's. -/
theorem v60_eq : val_main_v60 (F := F) = val_main_v12 (F := F) := by
  unfold val_main_v60 val_main_cst_12 val_main_v12 val_main_cst
  rfl

/-- The second layer's destination column of the first edge type is the first layer's. -/
theorem v61_eq (x14 : (⟨S800000, .i32⟩ : BufTy).Contents (Elt F)) : val_main_v61 (F := F) x14 = val_main_v13 (F := F) x14 := by
  unfold val_main_v61 val_main_v13
  rfl

/-- The second layer's clamped in-degree array of the first edge type is the first layer's. -/
theorem v69_eq (x14 : (⟨S800000, .i32⟩ : BufTy).Contents (Elt F)) : val_main_v69 (F := F) x14 = val_main_v21 (F := F) x14 := by
  unfold val_main_v69 val_main_v68 val_main_v67 val_main_v66 val_main_v65 val_main_v64 val_main_cst_14 val_main_v63 val_main_cst_13
    val_main_call3_v1 val_main_call3_v0 val_main_cst_15
  unfold val_main_v21 val_main_v20 val_main_v19 val_main_v18 val_main_v17 val_main_v16 val_main_cst_2 val_main_v15 val_main_cst_1
    val_main_call0_v1 val_main_call0_v0 val_main_cst_3
  rfl

/-- The second layer's wrapped source column of the second edge type is the first layer's. -/
theorem v80_eq (x15 : (⟨S800000, .i32⟩ : BufTy).Contents (Elt F)) : val_main_v80 (F := F) x15 = val_main_v32 (F := F) x15 := by
  unfold val_main_v80 val_main_v79 val_main_v78 val_main_v77 val_main_c_17 val_main_v76 val_main_v75 val_main_c_16
  unfold val_main_v32 val_main_v31 val_main_v30 val_main_v29 val_main_c_5 val_main_v28 val_main_v27 val_main_c_4
  rfl

/-- The second layer's zero array of the second edge type is the first layer's. -/
theorem v82_eq : val_main_v82 (F := F) = val_main_v34 (F := F) := by
  unfold val_main_v82 val_main_cst_18 val_main_v34 val_main_cst_6
  rfl

/-- The second layer's destination column of the second edge type is the first layer's. -/
theorem v83_eq (x16 : (⟨S800000, .i32⟩ : BufTy).Contents (Elt F)) : val_main_v83 (F := F) x16 = val_main_v35 (F := F) x16 := by
  unfold val_main_v83 val_main_v35
  rfl

/-- The second layer's clamped in-degree array of the second edge type is the first layer's. -/
theorem v91_eq (x16 : (⟨S800000, .i32⟩ : BufTy).Contents (Elt F)) : val_main_v91 (F := F) x16 = val_main_v43 (F := F) x16 := by
  unfold val_main_v91 val_main_v90 val_main_v89 val_main_v88 val_main_v87 val_main_v86 val_main_cst_20 val_main_v85 val_main_cst_19
    val_main_call4_v1 val_main_call4_v0 val_main_cst_21
  unfold val_main_v43 val_main_v42 val_main_v41 val_main_v40 val_main_v39 val_main_v38 val_main_cst_8 val_main_v37 val_main_cst_7
    val_main_call1_v1 val_main_call1_v0 val_main_cst_9
  rfl

/-- Second layer, first edge type. -/
theorem v70_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 x8 : (⟨S128x128, .f32⟩ : BufTy).Contents (Elt F)) (x13 x14 x15 x16 : (⟨S800000, .i32⟩ : BufTy).Contents (Elt F)) :
    val_main_v70 (F := F) x0 x1 x2 x3 x4 x5 x6 x7 x8 x13 x14 x15 x16
      = aggRa (F := F) x13 x14 (val_main_v52 (F := F) x0 x1 x2 x3 x4 x5 x6 x7 x8 x13 x14 x15 x16) := by
  unfold val_main_v70 val_main_v62 val_main_v59 aggRa
  rw [v58_eq, v60_eq, v61_eq, v69_eq]

/-- Second layer, second edge type. -/
theorem v92_eq (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 x10 : (⟨S128x128, .f32⟩ : BufTy).Contents (Elt F)) (x13 x14 x15 x16 : (⟨S800000, .i32⟩ : BufTy).Contents (Elt F)) :
    val_main_v92 (F := F) x0 x1 x2 x3 x4 x5 x6 x7 x10 x13 x14 x15 x16
      = aggRb (F := F) x15 x16 (val_main_v74 (F := F) x0 x1 x2 x3 x4 x5 x6 x7 x10 x13 x14 x15 x16) := by
  unfold val_main_v92 val_main_v84 val_main_v81 aggRb
  rw [v80_eq, v82_eq, v83_eq, v91_eq]

/-- Every bias stage is the same two broadcasts of its bias. -/
theorem v24_eq (b : (⟨S128, .f32⟩ : BufTy).Contents (Elt F)) : val_main_v24 (F := F) b = val_main_v2 (F := F) b := by
  unfold val_main_v24 val_main_v23 val_main_v2 val_main_v1
  rfl
theorem v46_eq (b : (⟨S128, .f32⟩ : BufTy).Contents (Elt F)) : val_main_v46 (F := F) b = val_main_v2 (F := F) b := by
  unfold val_main_v46 val_main_v45 val_main_v2 val_main_v1
  rfl
theorem v72_eq (b : (⟨S128, .f32⟩ : BufTy).Contents (Elt F)) : val_main_v72 (F := F) b = val_main_v2 (F := F) b := by
  unfold val_main_v72 val_main_v71 val_main_v2 val_main_v1
  rfl
theorem v94_eq (b : (⟨S128, .f32⟩ : BufTy).Contents (Elt F)) : val_main_v94 (F := F) b = val_main_v2 (F := F) b := by
  unfold val_main_v94 val_main_v93 val_main_v2 val_main_v1
  rfl

/-- The two clamps use the same broadcast zero constant. -/
theorem call5_eq : val_main_call5_v0 (F := F) = val_main_call2_v0 (F := F) := by
  unfold val_main_call5_v0 val_main_call5_cst val_main_call2_v0 val_main_call2_cst
  rfl

/-- A bias broadcast to every row, read at an index: the bias at the column coordinate. -/
theorem v2_at (b : (⟨S128, .f32⟩ : BufTy).Contents (Elt F)) (i : S50000x128.Idx) : val_main_v2 (F := F) b i = b (ix1 (i 1)) := by
  rw [val_main_v2_apply, val_main_v1_apply]
  congr 1
  funext a
  match a with
  | ⟨0, _⟩ => rfl

end Generic

/-! ### (2) The stages over the extended reals -/

/-- A `dot_general` stage with the plain 50000×128 by 128×128 dimension numbers is the matrix product. -/
theorem dot_eq_mm (h : (⟨S50000x128, .f32⟩ : BufTy).Contents (Elt Ideal)) (W : (⟨S128x128, .f32⟩ : BufTy).Contents (Elt Ideal)) :
    Host.dotGeneral (F := Ideal) (φ₁ := .f32) (φ₂ := .f32) dot_S50000x128_S128x128_S50000x128_1_0_0_1_n_n none h W = Spec.mm h W := by
  funext j
  unfold Spec.mm
  simp only [Host.dotGeneral]
  exact Cert.PlainDot.dotGeneral_apply 50000 128 128 none _ h W j

/-- The broadcast zero constant reads the zero word at every index. -/
theorem zero_at (i : S50000x128.Idx) : val_main_call2_v0 (F := Ideal) i = Spec.zeroW := by
  rw [val_main_call2_v0_apply, val_main_call2_cst_apply]
  rfl

/-- The projection stage is the specification's projection. -/
theorem v3_eq (x0 : (⟨S50000x128, .f32⟩ : BufTy).Contents (Elt Ideal)) (x1 : (⟨S128x128, .f32⟩ : BufTy).Contents (Elt Ideal)) (x2 : (⟨S128, .f32⟩ : BufTy).Contents (Elt Ideal)) :
    val_main_v3 (F := Ideal) x0 x1 x2 = Spec.proj x0 x1 x2 := by
  funext i
  rw [val_main_v3_apply, v2_at]
  unfold val_main_v0 Spec.proj
  rw [dot_eq_mm]
  rfl

/-! ### (3) A layer -/

/-- The pointwise stages of a layer — the two biased aggregates added, the self-loop product added, the maximum
    with the zero constant — are the specification's layer. -/
theorem layer_eq (h A B : (⟨S50000x128, .f32⟩ : BufTy).Contents (Elt Ideal)) (ba bb : (⟨S128, .f32⟩ : BufTy).Contents (Elt Ideal)) (L : (⟨S128x128, .f32⟩ : BufTy).Contents (Elt Ideal)) :
    maximumf (F := Ideal)
        (addf (addf (addf A (val_main_v2 (F := Ideal) ba)) (addf B (val_main_v2 (F := Ideal) bb)))
          (Host.dotGeneral (F := Ideal) (φ₁ := .f32) (φ₂ := .f32) dot_S50000x128_S128x128_S50000x128_1_0_0_1_n_n none h L))
        (val_main_call2_v0 (F := Ideal))
      = Spec.layer h A B ba bb L := by
  rw [dot_eq_mm]
  funext i
  unfold Spec.layer
  show max (((A i + val_main_v2 (F := Ideal) ba i) + (B i + val_main_v2 (F := Ideal) bb i)) + Spec.mm h L i)
      (val_main_call2_v0 (F := Ideal) i) = _
  rw [v2_at, v2_at, zero_at]

/-- The first layer's output stage is the specification's hidden features. -/
theorem hidden_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x13 x14 x15 x16 : (⟨S800000, .i32⟩ : BufTy).Contents (Elt Ideal)) :
    val_main_v51 (F := Ideal) x0 x1 x2 x3 x4 x5 x6 x7 x13 x14 x15 x16
      = Spec.hidden (aggRa (F := Ideal) x13 x14) (aggRb (F := Ideal) x15 x16) x0 x1 x2 x3 x4 x5 x6 x7 := by
  unfold val_main_v51 val_main_v50 val_main_v48 val_main_v25 val_main_v47 val_main_v49
  rw [v22_eq, v44_eq, v24_eq, v46_eq]
  unfold val_main_v4 val_main_v26 Spec.hidden
  rw [v3_eq]
  generalize Spec.proj x0 x1 x2 = h
  rw [dot_eq_mm h x3, dot_eq_mm h x5]
  exact layer_eq h _ _ x4 x6 x7

end RefV

theorem ref_value (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 x14 x15 x16 : (⟨S800000, .i32⟩ : BufTy).Contents (Elt Ideal)) :
    val_main_v99 (F := Ideal) x0 x1 x2 x3 x4 x5 x6 x7 x8 x9 x10 x11 x12 x13 x14 x15 x16
      = Spec.net (aggRa (F := Ideal) x13 x14) (aggRb (F := Ideal) x15 x16) x0 x1 x2 x3 x4 x5 x6 x7 x8 x9 x10 x11 x12 := by
  unfold val_main_v99 val_main_v98 val_main_v96 val_main_v73 val_main_v95 val_main_v97
  rw [RefV.v70_eq, RefV.v92_eq, RefV.v72_eq, RefV.v94_eq, RefV.call5_eq]
  unfold val_main_v52 val_main_v74 Spec.net
  rw [RefV.hidden_eq]
  generalize Spec.hidden (aggRa (F := Ideal) x13 x14) (aggRb (F := Ideal) x15 x16) x0 x1 x2 x3 x4 x5 x6 x7 = h1
  rw [RefV.dot_eq_mm h1 x8, RefV.dot_eq_mm h1 x10]
  exact RefV.layer_eq h1 _ _ x9 x11 x12

end Cert.RSide

end
-- ==== Proof.lean ====
/-
  A two-layer graph network on 50000 nodes with 128 features and two edge types: a tiled accelerator program against
  its plain array program, equal over the extended reals.

  Both programs project the node features (h0 = x·Wp + bp) and apply two layers; a layer sends each node's
  features through one weight matrix per edge type, sums the messages arriving along that type's edges, divides by
  the node's in-degree clamped below at one, adds the type's bias, adds the two types' results and a self-loop
  product, and clamps at zero. The accelerator program does the dense steps in three pipelined regions, 2000 rows at
  a time, with its matrix unit fed in a narrower float format, and the edge sums on the host between the regions;
  the array program does everything on whole arrays.

  Over the extended reals the differences vanish: a change of float format is the identity; a matrix-unit product
  into a zero accumulator and the host's contraction are both the sum over the contracted axis, and a row block of a
  product is the product of the row block; the blocks tile the arrays; a bias reshaped to a row or broadcast along
  rows reads the same entry; the degree column is the same whether reshaped or broadcast; the edge sums are the same
  operations with the same dimension numbers applied to equal arrays; and a layer's four summands, added one after
  the other in one program and grouped by edge type in the other, have the same sum because addition of extended
  reals is associative. No finiteness of the inputs is used.

  The modules: Spec (the network as functions of whole arrays), Region0/1/2 (each region's output arrays as those
  functions of the arrays the region finds), FoldA/FoldB (what each array holds at each region's entry, read back
  through the host lines), KTerms/RTerms/Bridge (the two programs' aggregation maps, and that they are one function),
  KValue and KRun (the accelerator program's result), RefValue (the array program's result), and the claims below.
-/
import proofs.«123243_j17592186044980_2_alg».proof.Defs
import proofs.«123243_j17592186044980_2_alg».proof.Proof.Gen.Kernel
import proofs.«123243_j17592186044980_2_alg».proof.Proof.Gen.Kernel.Skeleton
import proofs.«123243_j17592186044980_2_alg».proof.Proof.Gen.Kernel.Launch
import proofs.«123243_j17592186044980_2_alg».proof.Proof.Gen.Kernel.Points
import proofs.«123243_j17592186044980_2_alg».proof.Proof.Gen.Kernel.Frame
import proofs.«123243_j17592186044980_2_alg».proof.Proof.Gen.KernelIdeal
import proofs.«123243_j17592186044980_2_alg».proof.Proof.Gen.KernelIdeal.Skeleton
import proofs.«123243_j17592186044980_2_alg».proof.Proof.Gen.KernelIdeal.Launch
import proofs.«123243_j17592186044980_2_alg».proof.Proof.Gen.KernelIdeal.Points
import proofs.«123243_j17592186044980_2_alg».proof.Proof.Gen.KernelIdeal.Frame
import proofs.«123243_j17592186044980_2_alg».proof.Proof.Gen.ReferenceIdeal
import proofs.«123243_j17592186044980_2_alg».proof.Proof.Gen.Pre_finite_inputs
import proofs.«123243_j17592186044980_2_alg».proof.Proof.Gen.ReferenceIdeal.Read
import proofs.«123243_j17592186044980_2_alg».proof.Proof.KRun
import proofs.«123243_j17592186044980_2_alg».proof.Proof.KValue
import proofs.«123243_j17592186044980_2_alg».proof.Proof.RefValue
import Idealize.ShloMosaic.Adequacy
import Idealize.ShloMosaic.Init

noncomputable section

namespace Cert.Proof.Claims

open Idealize.ShloMosaic Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the same result array: the kernel
    program's is the network with its own aggregation maps, the reference's the network with the reference's, and
    the two pairs of maps are the same functions on the extended reals. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v71),
    Cert.KSide.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W10 (F := Ideal) m ρ c (Proc.devRef .tc Cert.KernelIdeal.main_v71)
  obtain ⟨h0, h1, h2, h3, h4, h5, h6, h7, h8, h9, h10, h11, h12, h13, h14, h15, h16⟩ := hagree c
  rw [Cert.ReferenceIdeal.Read.val_main_v99_eq, Cert.RSide.ref_value, Cert.KSide.kernel_value,
    h0, h1, h2, h3, h4, h5, h6, h7, h8, h9, h10, h11, h12, h13, h14, h15, h16]
  have ea := funext fun M => (Cert.Bridge.aggK_eq_aggRa (m ((c.tc : Thread Cert.KernelIdeal.nD Cert.KernelIdeal.τ).loc Cert.KernelIdeal.main_arg13)) (m ((c.tc : Thread Cert.KernelIdeal.nD Cert.KernelIdeal.τ).loc Cert.KernelIdeal.main_arg14)) M)
  have eb := funext fun M => (Cert.Bridge.aggK_eq_aggRb (m ((c.tc : Thread Cert.KernelIdeal.nD Cert.KernelIdeal.τ).loc Cert.KernelIdeal.main_arg15)) (m ((c.tc : Thread Cert.KernelIdeal.nD Cert.KernelIdeal.τ).loc Cert.KernelIdeal.main_arg16)) M)
  rw [ea, eb]

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
